-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S320x4 : Shape := ⟨2, ![320, 4]⟩
abbrev S320 : Shape := ⟨1, ![320]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S320x4 : S_.BroadcastsInDim S320x4 (![] : Fin 0 → Fin S320x4.rank)
  reducesTo_S320x4_S_d0_1 : S320x4.ReducesTo [0, 1] S_

variable [Facts]

def fn {F : FTy → Type} [FloatOps F] (main_arg0 : FVec F S16x256x128x128 .f32) (main_arg1 : FVec F S320x4 .f32) (main_arg2 : IVec S320 32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S320x4 .f32 := Host.absf main_arg1
  let main_cst_0 : FVec F S_ .f32 := constant S_ .f32 0x7F800000#32
  let main_v5 : FVec F S320x4 .f32 := broadcastInDim S320x4 ![] bcast_S_S320x4 main_cst_0
  let main_v6 : IVec S320x4 1 := cmpf .olt main_v4 main_v5
  let main_c_1 : IVec S_ 1 := constantI S_ 1 1#1
  let main_v7 : IVec S_ 1 := (fun x v => Host.reduce IntOp.andi x v reducesTo_S320x4_S_d0_1 h_S_) main_v6 main_c_1
  let main_v8 : IVec S_ 1 := andi main_v3 main_v7
  main_v8
-- ==== Kernel.lean ====
abbrev S16x256x128x128 : Shape := ⟨4, ![16, 256, 128, 128]⟩
abbrev S320x4 : Shape := ⟨2, ![320, 4]⟩
abbrev S320 : Shape := ⟨1, ![320]⟩
abbrev S320x1 : Shape := ⟨2, ![320, 1]⟩
abbrev S_ : Shape := ⟨0, ![]⟩
abbrev S128 : Shape := ⟨1, ![128]⟩
abbrev S1x128 : Shape := ⟨2, ![1, 128]⟩
abbrev S320x128 : Shape := ⟨2, ![320, 128]⟩
abbrev S320x1x1 : Shape := ⟨3, ![320, 1, 1]⟩
abbrev S320x128x1 : Shape := ⟨3, ![320, 128, 1]⟩
abbrev S320x1x128 : Shape := ⟨3, ![320, 1, 128]⟩
abbrev S320x128x128 : Shape := ⟨3, ![320, 128, 128]⟩
abbrev S16x128x128 : Shape := ⟨3, ![16, 128, 128]⟩
abbrev S16x1x128x128 : Shape := ⟨4, ![16, 1, 128, 128]⟩
abbrev S1x256x32x128 : Shape := ⟨4, ![1, 256, 32, 128]⟩
abbrev S1x1x32x128 : Shape := ⟨4, ![1, 1, 32, 128]⟩
abbrev S1x32x128 : Shape := ⟨3, ![1, 32, 128]⟩

abbrev nBuf : Space → Nat
  | .hbm => 129
  | .vmem => 6
  | .smem => 0
  | _ => 0

abbrev hbmTy0_0 (i : Nat) : BufTy := match i % 128 with
  | 0 => ⟨S16x256x128x128, .f32⟩
  | 1 => ⟨S320x4, .f32⟩
  | 2 => ⟨S320, .i32⟩
  | 3 => ⟨S320x1, .f32⟩
  | 4 => ⟨S320, .f32⟩
  | 5 => ⟨S320x1, .f32⟩
  | 6 => ⟨S320, .f32⟩
  | 7 => ⟨S320x1, .f32⟩
  | 8 => ⟨S320, .f32⟩
  | 9 => ⟨S320x1, .f32⟩
  | 10 => ⟨S320, .f32⟩
  | 11 => ⟨S_, .f32⟩
  | 12 => ⟨S320, .f32⟩
  | 13 => ⟨S320, .f32⟩
  | 14 => ⟨S320, .f32⟩
  | 15 => ⟨S_, .f32⟩
  | 16 => ⟨S320, .f32⟩
  | 17 => ⟨S320, .f32⟩
  | 18 => ⟨S_, .f32⟩
  | 19 => ⟨S320, .f32⟩
  | 20 => ⟨S320, .i1⟩
  | 21 => ⟨S320, .f32⟩
  | 22 => ⟨S320, .f32⟩
  | 23 => ⟨S320, .f32⟩
  | 24 => ⟨S320, .i32⟩
  | 25 => ⟨S_, .i32⟩
  | 26 => ⟨S320, .i32⟩
  | 27 => ⟨S320, .i32⟩
  | 28 => ⟨S_, .f32⟩
  | 29 => ⟨S320, .f32⟩
  | 30 => ⟨S320, .f32⟩
  | 31 => ⟨S320, .f32⟩
  | 32 => ⟨S_, .f32⟩
  | 33 => ⟨S320, .f32⟩
  | 34 => ⟨S320, .f32⟩
  | 35 => ⟨S_, .f32⟩
  | 36 => ⟨S320, .f32⟩
  | 37 => ⟨S320, .i1⟩
  | 38 => ⟨S320, .f32⟩
  | 39 => ⟨S320, .f32⟩
  | 40 => ⟨S320, .f32⟩
  | 41 => ⟨S320, .i32⟩
  | 42 => ⟨S_, .i32⟩
  | 43 => ⟨S320, .i32⟩
  | 44 => ⟨S320, .i32⟩
  | 45 => ⟨S_, .f32⟩
  | 46 => ⟨S320, .f32⟩
  | 47 => ⟨S320, .f32⟩
  | 48 => ⟨S320, .f32⟩
  | 49 => ⟨S_, .f32⟩
  | 50 => ⟨S320, .f32⟩
  | 51 => ⟨S320, .f32⟩
  | 52 => ⟨S_, .f32⟩
  | 53 => ⟨S320, .f32⟩
  | 54 => ⟨S320, .i1⟩
  | 55 => ⟨S320, .f32⟩
  | 56 => ⟨S320, .f32⟩
  | 57 => ⟨S320, .f32⟩
  | 58 => ⟨S320, .i32⟩
  | 59 => ⟨S_, .i32⟩
  | 60 => ⟨S320, .i32⟩
  | 61 => ⟨S320, .i32⟩
  | 62 => ⟨S_, .f32⟩
  | 63 => ⟨S320, .f32⟩
  | 64 => ⟨S320, .f32⟩
  | 65 => ⟨S320, .f32⟩
  | 66 => ⟨S_, .f32⟩
  | 67 => ⟨S320, .f32⟩
  | 68 => ⟨S320, .f32⟩
  | 69 => ⟨S_, .f32⟩
  | 70 => ⟨S320, .f32⟩
  | 71 => ⟨S320, .i1⟩
  | 72 => ⟨S320, .f32⟩
  | 73 => ⟨S320, .f32⟩
  | 74 => ⟨S320, .f32⟩
  | 75 => ⟨S320, .i32⟩
  | 76 => ⟨S_, .i32⟩
  | 77 => ⟨S320, .i32⟩
  | 78 => ⟨S320, .i32⟩
  | 79 => ⟨S320, .i1⟩
  | 80 => ⟨S320, .i1⟩
  | 81 => ⟨S320, .i1⟩
  | 82 => ⟨S128, .i32⟩
  | 83 => ⟨S128, .i32⟩
  | 84 => ⟨S1x128, .i32⟩
  | 85 => ⟨S320x1, .i32⟩
  | 86 => ⟨S320x128, .i32⟩
  | 87 => ⟨S320x128, .i32⟩
  | 88 => ⟨S320x128, .i1⟩
  | 89 => ⟨S1x128, .i32⟩
  | 90 => ⟨S320x1, .i32⟩
  | 91 => ⟨S320x128, .i32⟩
  | 92 => ⟨S320x128, .i32⟩
  | 93 => ⟨S320x128, .i1⟩
  | 94 => ⟨S320x128, .i1⟩
  | 95 => ⟨S1x128, .i32⟩
  | 96 => ⟨S320x1, .i32⟩
  | 97 => ⟨S320x128, .i32⟩
  | 98 => ⟨S320x128, .i32⟩
  | 99 => ⟨S320x128, .i1⟩
  | 100 => ⟨S1x128, .i32⟩
  | 101 => ⟨S320x1, .i32⟩
  | 102 => ⟨S320x128, .i32⟩
  | 103 => ⟨S320x128, .i32⟩
  | 104 => ⟨S320x128, .i1⟩
  | 105 => ⟨S320x128, .i1⟩
  | 106 => ⟨S320x1x1, .i1⟩
  | 107 => ⟨S320x128x1, .i1⟩
  | 108 => ⟨S320x128x1, .i1⟩
  | 109 => ⟨S320x128x1, .i1⟩
  | 110 => ⟨S320x1x128, .i1⟩
  | 111 => ⟨S320x128x128, .i1⟩
  | 112 => ⟨S320x128x128, .i1⟩
  | 113 => ⟨S320x128x128, .i1⟩
  | 114 => ⟨S320x128x128, .f32⟩
  | 115 => ⟨S_, .f32⟩
  | 116 => ⟨S16x128x128, .f32⟩
  | 117 => ⟨S320x1, .i32⟩
  | 118 => ⟨S16x128x128, .f32⟩
  | 119 => ⟨S_, .f32⟩
  | 120 => ⟨S_, .f32⟩
  | 121 => ⟨S_, .f32⟩
  | 122 => ⟨S16x128x128, .f32⟩
  | 123 => ⟨S16x128x128, .f32⟩
  | 124 => ⟨S_, .f32⟩
  | 125 => ⟨S16x128x128, .f32⟩
  | 126 => ⟨S16x128x128, .f32⟩
  | 127 => ⟨S16x1x128x128, .f32⟩
  | _ => ⟨S16x256x128x128, .f32⟩

abbrev hbmTy0_1 (i : Nat) : BufTy := match i % 128 with
  | 0 => ⟨S16x256x128x128, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | .local _ .vmem, ⟨0, _⟩ => ⟨S1x256x32x128, .f32⟩
  | .local _ .vmem, ⟨1, _⟩ => ⟨S1x256x32x128, .f32⟩
  | .local _ .vmem, ⟨2, _⟩ => ⟨S1x1x32x128, .f32⟩
  | .local _ .vmem, ⟨3, _⟩ => ⟨S1x1x32x128, .f32⟩
  | .local _ .vmem, ⟨4, _⟩ => ⟨S1x256x32x128, .f32⟩
  | .local _ .vmem, ⟨5, _⟩ => ⟨S1x256x32x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_v40 : Ref sig .tc := ⟨.hbm, 74, rfl⟩
abbrev main_v41 : Ref sig .tc := ⟨.hbm, 75, rfl⟩
abbrev main_c_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_11 : Ref sig .tc := ⟨.hbm, 119, rfl⟩
abbrev main_cst_12 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S320x4_S320x1_0_0 : S320x4.Slices ![0, 0] S320x1
  shapeCasts_S320x1_S320 : S320x1.ShapeCasts S320
  slices_S320x4_S320x1_0_1 : S320x4.Slices ![0, 1] S320x1
  slices_S320x4_S320x1_0_2 : S320x4.Slices ![0, 2] S320x1
  slices_S320x4_S320x1_0_3 : S320x4.Slices ![0, 3] S320x1
  bcast_S_S320 : S_.BroadcastsInDim S320 (![] : Fin 0 → Fin S320.rank)
  bcast_S128_S1x128_1 : S128.BroadcastsInDim S1x128 (![1] : Fin 1 → Fin S1x128.rank)
  bcast_S320_S320x1_0 : S320.BroadcastsInDim S320x1 (![0] : Fin 1 → Fin S320x1.rank)
  bcast_S1x128_S320x128_0_1 : S1x128.BroadcastsInDim S320x128 (![0, 1] : Fin 2 → Fin S320x128.rank)
  bcast_S320x1_S320x128_0_1 : S320x1.BroadcastsInDim S320x128 (![0, 1] : Fin 2 → Fin S320x128.rank)
  bcast_S320_S320x1x1_0 : S320.BroadcastsInDim S320x1x1 (![0] : Fin 1 → Fin S320x1x1.rank)
  bcast_S320x128_S320x128x1_0_1 : S320x128.BroadcastsInDim S320x128x1 (![0, 1] : Fin 2 → Fin S320x128x1.rank)
  bcast_S320x1x1_S320x128x1_0_1_2 : S320x1x1.BroadcastsInDim S320x128x1 (![0, 1, 2] : Fin 3 → Fin S320x128x1.rank)
  bcast_S320x128_S320x1x128_0_2 : S320x128.BroadcastsInDim S320x1x128 (![0, 2] : Fin 2 → Fin S320x1x128.rank)
  bcast_S320x128x1_S320x128x128_0_1_2 : S320x128x1.BroadcastsInDim S320x128x128 (![0, 1, 2] : Fin 3 → Fin S320x128x128.rank)
  bcast_S320x1x128_S320x128x128_0_1_2 : S320x1x128.BroadcastsInDim S320x128x128 (![0, 1, 2] : Fin 3 → Fin S320x128x128.rank)
  bcast_S_S16x128x128 : S_.BroadcastsInDim S16x128x128 (![] : Fin 0 → Fin S16x128x128.rank)
  bcast_S16x128x128_S16x1x128x128_0_2_3 : S16x128x128.BroadcastsInDim S16x1x128x128 (![0, 2, 3] : Fin 3 → Fin S16x1x128x128.rank)
  inb_S1x256x32x128_S1x256x32x128_0_0_0_0 : ∀ a, (![0, 0, 0, 0] : Fin 4 → Nat) a + S1x256x32x128.size a ≤ S1x256x32x128.size a
  h_S1x256x32x128 : 0 < S1x256x32x128.numel
  reduces_S1x256x32x128_S1x32x128 : S1x256x32x128.Reduces [1] S1x32x128
  shapeCasts_S1x32x128_S1x1x32x128 : S1x32x128.ShapeCasts S1x1x32x128
  inb_S1x1x32x128_S1x1x32x128_0_0_0_0 : ∀ a, (![0, 0, 0, 0] : Fin 4 → Nat) a + S1x1x32x128.size a ≤ S1x1x32x128.size a
  h_S1x1x32x128 : 0 < S1x1x32x128.numel
  shapeCasts_S1x1x32x128_S1x1x32x128 : S1x1x32x128.ShapeCasts S1x1x32x128
  broadcasts_S1x1x32x128_S1x256x32x128 : S1x1x32x128.Broadcasts S1x256x32x128
  scatter_S16x128x128_S320x1_S320x128x128_12_0_0_1_wf : ScatterDims.WF S16x128x128 S320x1 S320x128x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S16x256x128x128.size a
  hwx0_0 : ∀ i : grid0.Coords, EltTy.bits .f32 = 32 ∨ (Rect.block (s := S16x256x128x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x128.size a ≤ S16x1x128x128.size a
  hwx0_1 : ∀ i : grid0.Coords, EltTy.bits .f32 = 32 ∨ (Rect.block (s := S16x1x128x128) S1x1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32x128.size a ≤ S16x256x128x128.size a
  hwx0_2 : ∀ i : grid0.Coords, EltTy.bits .f32 = 32 ∨ (Rect.block (s := S16x256x128x128) S1x256x32x128.size (cc0_transform_2 i) (hinb0_2 i)).WholeWords (EltTy.packing .f32)

variable [Facts₀]

def scatter_S16x128x128_S320x1_S320x128x128_12_0_0_1 : ScatterDims S16x128x128 S320x1 S320x128x128 where
  updateWindowDims := [1, 2]
  insertedWindowDims := [0]
  scatterDimsToOperandDims := [0]
  indexVectorDim := 1
  wf := scatter_S16x128x128_S320x1_S320x128x128_12_0_0_1_wf

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v84) S1x1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85) S1x256x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S320x4 : Shape := ⟨2, ![320, 4]⟩
abbrev S320 : Shape := ⟨1, ![320]⟩
abbrev S320x1 : Shape := ⟨2, ![320, 1]⟩
abbrev S_ : Shape := ⟨0, ![]⟩
abbrev S128 : Shape := ⟨1, ![128]⟩
abbrev S1x128 : Shape := ⟨2, ![1, 128]⟩
abbrev S320x128 : Shape := ⟨2, ![320, 128]⟩
abbrev S320x1x1 : Shape := ⟨3, ![320, 1, 1]⟩
abbrev S320x128x1 : Shape := ⟨3, ![320, 128, 1]⟩
abbrev S320x1x128 : Shape := ⟨3, ![320, 1, 128]⟩
abbrev S320x128x128 : Shape := ⟨3, ![320, 128, 128]⟩
abbrev S16x128x128 : Shape := ⟨3, ![16, 128, 128]⟩
abbrev S16x1x128x128 : Shape := ⟨4, ![16, 1, 128, 128]⟩

abbrev nBuf : Space → Nat
  | .hbm => 140
  | .vmem => 0
  | .smem => 0
  | _ => 0

abbrev hbmTy0_0 (i : Nat) : BufTy := match i % 128 with
  | 0 => ⟨S16x256x128x128, .f32⟩
  | 1 => ⟨S320x4, .f32⟩
  | 2 => ⟨S320, .i32⟩
  | 3 => ⟨S320x1, .f32⟩
  | 4 => ⟨S320, .f32⟩
  | 5 => ⟨S320x1, .f32⟩
  | 6 => ⟨S320, .f32⟩
  | 7 => ⟨S320x1, .f32⟩
  | 8 => ⟨S320, .f32⟩
  | 9 => ⟨S320x1, .f32⟩
  | 10 => ⟨S320, .f32⟩
  | 11 => ⟨S_, .f32⟩
  | 12 => ⟨S320, .f32⟩
  | 13 => ⟨S320, .f32⟩
  | 14 => ⟨S320, .f32⟩
  | 15 => ⟨S_, .f32⟩
  | 16 => ⟨S320, .f32⟩
  | 17 => ⟨S320, .f32⟩
  | 18 => ⟨S_, .f32⟩
  | 19 => ⟨S320, .f32⟩
  | 20 => ⟨S320, .i1⟩
  | 21 => ⟨S320, .f32⟩
  | 22 => ⟨S320, .f32⟩
  | 23 => ⟨S320, .f32⟩
  | 24 => ⟨S320, .i32⟩
  | 25 => ⟨S_, .i32⟩
  | 26 => ⟨S320, .i32⟩
  | 27 => ⟨S320, .i32⟩
  | 28 => ⟨S_, .f32⟩
  | 29 => ⟨S320, .f32⟩
  | 30 => ⟨S320, .f32⟩
  | 31 => ⟨S320, .f32⟩
  | 32 => ⟨S_, .f32⟩
  | 33 => ⟨S320, .f32⟩
  | 34 => ⟨S320, .f32⟩
  | 35 => ⟨S_, .f32⟩
  | 36 => ⟨S320, .f32⟩
  | 37 => ⟨S320, .i1⟩
  | 38 => ⟨S320, .f32⟩
  | 39 => ⟨S320, .f32⟩
  | 40 => ⟨S320, .f32⟩
  | 41 => ⟨S320, .i32⟩
  | 42 => ⟨S_, .i32⟩
  | 43 => ⟨S320, .i32⟩
  | 44 => ⟨S320, .i32⟩
  | 45 => ⟨S_, .f32⟩
  | 46 => ⟨S320, .f32⟩
  | 47 => ⟨S320, .f32⟩
  | 48 => ⟨S320, .f32⟩
  | 49 => ⟨S_, .f32⟩
  | 50 => ⟨S320, .f32⟩
  | 51 => ⟨S320, .f32⟩
  | 52 => ⟨S_, .f32⟩
  | 53 => ⟨S320, .f32⟩
  | 54 => ⟨S320, .i1⟩
  | 55 => ⟨S320, .f32⟩
  | 56 => ⟨S320, .f32⟩
  | 57 => ⟨S320, .f32⟩
  | 58 => ⟨S320, .i32⟩
  | 59 => ⟨S_, .i32⟩
  | 60 => ⟨S320, .i32⟩
  | 61 => ⟨S320, .i32⟩
  | 62 => ⟨S_, .f32⟩
  | 63 => ⟨S320, .f32⟩
  | 64 => ⟨S320, .f32⟩
  | 65 => ⟨S320, .f32⟩
  | 66 => ⟨S_, .f32⟩
  | 67 => ⟨S320, .f32⟩
  | 68 => ⟨S320, .f32⟩
  | 69 => ⟨S_, .f32⟩
  | 70 => ⟨S320, .f32⟩
  | 71 => ⟨S320, .i1⟩
  | 72 => ⟨S320, .f32⟩
  | 73 => ⟨S320, .f32⟩
  | 74 => ⟨S320, .f32⟩
  | 75 => ⟨S320, .i32⟩
  | 76 => ⟨S_, .i32⟩
  | 77 => ⟨S320, .i32⟩
  | 78 => ⟨S320, .i32⟩
  | 79 => ⟨S320, .i1⟩
  | 80 => ⟨S320, .i1⟩
  | 81 => ⟨S320, .i1⟩
  | 82 => ⟨S128, .i32⟩
  | 83 => ⟨S128, .i32⟩
  | 84 => ⟨S1x128, .i32⟩
  | 85 => ⟨S320x1, .i32⟩
  | 86 => ⟨S320x128, .i32⟩
  | 87 => ⟨S320x128, .i32⟩
  | 88 => ⟨S320x128, .i1⟩
  | 89 => ⟨S1x128, .i32⟩
  | 90 => ⟨S320x1, .i32⟩
  | 91 => ⟨S320x128, .i32⟩
  | 92 => ⟨S320x128, .i32⟩
  | 93 => ⟨S320x128, .i1⟩
  | 94 => ⟨S320x128, .i1⟩
  | 95 => ⟨S1x128, .i32⟩
  | 96 => ⟨S320x1, .i32⟩
  | 97 => ⟨S320x128, .i32⟩
  | 98 => ⟨S320x128, .i32⟩
  | 99 => ⟨S320x128, .i1⟩
  | 100 => ⟨S1x128, .i32⟩
  | 101 => ⟨S320x1, .i32⟩
  | 102 => ⟨S320x128, .i32⟩
  | 103 => ⟨S320x128, .i32⟩
  | 104 => ⟨S320x128, .i1⟩
  | 105 => ⟨S320x128, .i1⟩
  | 106 => ⟨S320x1x1, .i1⟩
  | 107 => ⟨S320x128x1, .i1⟩
  | 108 => ⟨S320x128x1, .i1⟩
  | 109 => ⟨S320x128x1, .i1⟩
  | 110 => ⟨S320x1x128, .i1⟩
  | 111 => ⟨S320x128x128, .i1⟩
  | 112 => ⟨S320x128x128, .i1⟩
  | 113 => ⟨S320x128x128, .i1⟩
  | 114 => ⟨S320x128x128, .f32⟩
  | 115 => ⟨S_, .f32⟩
  | 116 => ⟨S16x128x128, .f32⟩
  | 117 => ⟨S320x1, .i32⟩
  | 118 => ⟨S16x128x128, .f32⟩
  | 119 => ⟨S_, .f32⟩
  | 120 => ⟨S_, .f32⟩
  | 121 => ⟨S_, .f32⟩
  | 122 => ⟨S16x128x128, .f32⟩
  | 123 => ⟨S16x128x128, .f32⟩
  | 124 => ⟨S_, .f32⟩
  | 125 => ⟨S16x128x128, .f32⟩
  | 126 => ⟨S16x128x128, .f32⟩
  | 127 => ⟨S16x1x128x128, .f32⟩
  | _ => ⟨S16x256x128x128, .f32⟩

abbrev hbmTy0_1 (i : Nat) : BufTy := match i % 128 with
  | 0 => ⟨S_, .f32⟩
  | 1 => ⟨S16x128x128, .f32⟩
  | 2 => ⟨S16x1x128x128, .f32⟩
  | 3 => ⟨S_, .f32⟩
  | 4 => ⟨S16x1x128x128, .f32⟩
  | 5 => ⟨S16x1x128x128, .f32⟩
  | 6 => ⟨S_, .f32⟩
  | 7 => ⟨S16x1x128x128, .f32⟩
  | 8 => ⟨S16x1x128x128, .f32⟩
  | 9 => ⟨S16x1x128x128, .f32⟩
  | 10 => ⟨S16x256x128x128, .f32⟩
  | 11 => ⟨S16x256x128x128, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_v40 : Ref sig .tc := ⟨.hbm, 74, rfl⟩
abbrev main_v41 : Ref sig .tc := ⟨.hbm, 75, rfl⟩
abbrev main_c_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_11 : Ref sig .tc := ⟨.hbm, 119, rfl⟩
abbrev main_cst_12 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_cst_14 : Ref sig .tc := ⟨.hbm, 131, rfl⟩
abbrev main_v87 : Ref sig .tc := ⟨.hbm, 132, rfl⟩
abbrev main_v88 : Ref sig .tc := ⟨.hbm, 133, rfl⟩
abbrev main_cst_15 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩

abbrev nD : Nat := 1
abbrev τ : Topo := Topo.v7x

variable {F : FTy → Type} [FloatOps F]

class Facts₀ : Prop where
  slices_S320x4_S320x1_0_0 : S320x4.Slices ![0, 0] S320x1
  shapeCasts_S320x1_S320 : S320x1.ShapeCasts S320
  slices_S320x4_S320x1_0_1 : S320x4.Slices ![0, 1] S320x1
  slices_S320x4_S320x1_0_2 : S320x4.Slices ![0, 2] S320x1
  slices_S320x4_S320x1_0_3 : S320x4.Slices ![0, 3] S320x1
  bcast_S_S320 : S_.BroadcastsInDim S320 (![] : Fin 0 → Fin S320.rank)
  bcast_S128_S1x128_1 : S128.BroadcastsInDim S1x128 (![1] : Fin 1 → Fin S1x128.rank)
  bcast_S320_S320x1_0 : S320.BroadcastsInDim S320x1 (![0] : Fin 1 → Fin S320x1.rank)
  bcast_S1x128_S320x128_0_1 : S1x128.BroadcastsInDim S320x128 (![0, 1] : Fin 2 → Fin S320x128.rank)
  bcast_S320x1_S320x128_0_1 : S320x1.BroadcastsInDim S320x128 (![0, 1] : Fin 2 → Fin S320x128.rank)
  bcast_S320_S320x1x1_0 : S320.BroadcastsInDim S320x1x1 (![0] : Fin 1 → Fin S320x1x1.rank)
  bcast_S320x128_S320x128x1_0_1 : S320x128.BroadcastsInDim S320x128x1 (![0, 1] : Fin 2 → Fin S320x128x1.rank)
  bcast_S320x1x1_S320x128x1_0_1_2 : S320x1x1.BroadcastsInDim S320x128x1 (![0, 1, 2] : Fin 3 → Fin S320x128x1.rank)
  bcast_S320x128_S320x1x128_0_2 : S320x128.BroadcastsInDim S320x1x128 (![0, 2] : Fin 2 → Fin S320x1x128.rank)
  bcast_S320x128x1_S320x128x128_0_1_2 : S320x128x1.BroadcastsInDim S320x128x128 (![0, 1, 2] : Fin 3 → Fin S320x128x128.rank)
  bcast_S320x1x128_S320x128x128_0_1_2 : S320x1x128.BroadcastsInDim S320x128x128 (![0, 1, 2] : Fin 3 → Fin S320x128x128.rank)
  bcast_S_S16x128x128 : S_.BroadcastsInDim S16x128x128 (![] : Fin 0 → Fin S16x128x128.rank)
  bcast_S16x128x128_S16x1x128x128_0_2_3 : S16x128x128.BroadcastsInDim S16x1x128x128 (![0, 2, 3] : Fin 3 → Fin S16x1x128x128.rank)
  reducesTo_S16x256x128x128_S16x128x128_d1 : S16x256x128x128.ReducesTo [1] S16x128x128
  h_S_ : 0 < S_.numel
  bcast_S_S16x1x128x128 : S_.BroadcastsInDim S16x1x128x128 (![] : Fin 0 → Fin S16x1x128x128.rank)
  bcast_S16x1x128x128_S16x256x128x128_0_1_2_3 : S16x1x128x128.BroadcastsInDim S16x256x128x128 (![0, 1, 2, 3] : Fin 4 → Fin S16x256x128x128.rank)
  scatter_S16x128x128_S320x1_S320x128x128_12_0_0_1_wf : ScatterDims.WF S16x128x128 S320x1 S320x128x128 [1, 2] [0] [0] 1

variable [Facts₀]

def scatter_S16x128x128_S320x1_S320x128x128_12_0_0_1 : ScatterDims S16x128x128 S320x1 S320x128x128 where
  updateWindowDims := [1, 2]
  insertedWindowDims := [0]
  scatterDimsToOperandDims := [0]
  indexVectorDim := 1
  wf := scatter_S16x128x128_S320x1_S320x128x128_12_0_0_1_wf

class Facts : Prop extends Facts₀ where

variable [Facts]
-- ==== Proof.Spec.lean ====
/-
  The specification: what both programs compute, as ONE function of the input array and the mask, index by index
  on the extended reals.

  For an input x of shape [16, 256, 128, 128] and a mask M of shape [16, 1, 128, 128], the result at (b, c, h, w) is

      x(b, c, h, w) + (1 · M(b, 0, h, w)) · ((Σ_k x(b, k, h, w)) · 2⁻⁸),

  the sum over the 256 channels k. The constant 1 and the factor 2⁻⁸ are kept as the float words the programs spell;
  the only facts needed about them are that the word 0x43800000 denotes 256, the word 0x3B800000 denotes 1/256, and
  hence that dividing ANY extended real by the first is multiplying it by the second (no finiteness is involved:
  division by a nonzero real is multiplication by its inverse on all of [-∞, +∞]).
-/
import Idealize.ShloMosaic.PureOps.Ideal
import Idealize.ShloMosaic.PureOps.Ideal.Laws
import Idealize.ShloMosaic.Lib.ValueIdx

noncomputable section

open scoped BigOperators

namespace Cert.Excite

open Idealize.ShloMosaic Idealize.ShloMosaic.ValueIdx

/-- The input's and the result's shape. -/
abbrev SX : Shape := ⟨4, ![16, 256, 128, 128]⟩
/-- The mask's shape. -/
abbrev SM : Shape := ⟨4, ![16, 1, 128, 128]⟩

/-- The float word of 256.0 denotes the real 256. -/
theorem ofBits_256 : Ideal.ofBits .f32 0x43800000#32 = ((256 : ℝ) : EReal) := by
  simp [Ideal.ofBits, Ideal.ieee, -EReal.coe_mul]; norm_num

/-- The float word of 2⁻⁸ denotes the real 1/256. -/
theorem ofBits_inv256 : Ideal.ofBits .f32 0x3B800000#32 = ((1 / 256 : ℝ) : EReal) := by
  simp [Ideal.ofBits, Ideal.ieee, -EReal.coe_mul]; norm_num

/-- The float word of +0.0 denotes 0. -/
theorem ofBits_zero : Ideal.ofBits .f32 0x00000000#32 = 0 := by
  simp [Ideal.ofBits, Ideal.ieee]

/-- Dividing by 256 is multiplying by 2⁻⁸, for every extended real. -/
theorem div_256 (s : EReal) :
    Ideal.div s (Ideal.ofBits .f32 0x43800000#32) = s * Ideal.ofBits .f32 0x3B800000#32 := by
  rw [ofBits_256, ofBits_inv256, Ideal.div_coe (by norm_num : (256 : ℝ) ≠ 0)]

/-- The result at (b, c, h, w): the input there plus the mask at (b, 0, h, w) times the mean of the input over the
    channels at (b, ·, h, w). -/
def exciteAt (x : SX.Idx → EReal) (M : SM.Idx → EReal) (b : Fin 16) (c : Fin 256) (h : Fin 128) (w : Fin 128) : EReal :=
  x (ix4 b c h w)
    + (Ideal.ofBits .f32 0x3F800000#32 * M (ix4 b (0 : Fin 1) h w))
      * ((∑ k : Fin 256, x (ix4 b k h w)) * Ideal.ofBits .f32 0x3B800000#32)

/-- The result array. -/
def excite (x : SX.Idx → EReal) (M : SM.Idx → EReal) : SX.Idx → EReal :=
  fun i => exciteAt x M (i 0) (i 1) (i 2) (i 3)

theorem excite_apply (x : SX.Idx → EReal) (M : SM.Idx → EReal) (b : Fin 16) (c : Fin 256) (h : Fin 128) (w : Fin 128) :
    excite x M (ix4 b c h w) = exciteAt x M b c h w := rfl

end Cert.Excite

end
-- ==== Proof.LibAxis1.lean ====
/-
  Sums over axis 1 of a rank-4 array, read at an index, on the extended reals — for any extents n0, n1, n2, n3.

  In a reduction of a [n0, n1, n2, n3] array over its axis 1 the result has shape [n0, n2, n3], and the source index
  over the result index (a, c, d) with coordinate k on the reduced axis is (a, k, c, d). Hence, at the ideal values,
    · a vector `multi_reduction <add>` over axis 1 from the neutral accumulator, read at (a, c, d), is
      Σ_k src(a, k, c, d);
    · the host's `reduce add` over axis 1 from an initial value, read at (a, c, d), is that value plus the same sum.
  (A per-channel sum of an image batch [B, C, H, W] is the instance n1 = C.)
-/
import Idealize.ShloMosaic.PureOps.Ideal
import Idealize.ShloMosaic.PureOps.Ideal.Laws
import Idealize.ShloMosaic.Lib.ValueIdx

noncomputable section

open scoped BigOperators

namespace Cert.LibAxis1

open Idealize.ShloMosaic Idealize.ShloMosaic.ValueIdx

/-- In a reduction over axis 1 of a rank-4 array, the source index over the result index (a, c, d) with coordinate k
    on the reduced axis is (a, k, c, d). -/
theorem lift_axis1 {n0 n1 n2 n3 : Nat}
    (h : (⟨4, ![n0, n1, n2, n3]⟩ : Shape).Reduces [(1 : Fin 4)] ⟨3, ![n0, n2, n3]⟩)
    (a : Fin n0) (c : Fin n2) (d : Fin n3) (k : Fin n1) :
    h.lift (ix3 a c d) k = ix4 a k c d := by
  funext e
  apply Fin.ext
  match e with
  | ⟨0, _⟩ => rfl
  | ⟨1, _⟩ => rfl
  | ⟨2, _⟩ => rfl
  | ⟨3, _⟩ => rfl

/-- A vector `multi_reduction <add>` over axis 1 from the neutral accumulator, read at (a, c, d): the sum over the
    reduced coordinate of the source at (a, ·, c, d). -/
theorem multiReduction_add_axis1 {n0 n1 n2 n3 : Nat} {φ : FTy} (src : FVec Ideal ⟨4, ![n0, n1, n2, n3]⟩ φ)
    (acc : BitVec φ.bits) (h : (⟨4, ![n0, n1, n2, n3]⟩ : Shape).Reduces [(1 : Fin 4)] ⟨3, ![n0, n2, n3]⟩)
    (hφ : FKind.Formats φ) (hacc : acc = FKind.add.neutral φ hφ) (a : Fin n0) (c : Fin n2) (d : Fin n3) :
    multiReduction (F := Ideal) .add [(1 : Fin 4)] ⟨3, ![n0, n2, n3]⟩ src acc h hφ hacc (ix3 a c d)
      = ∑ k : Fin n1, src (ix4 a k c d) :=
  (Ideal.multiReduction_add_single src acc h hφ hacc (ix3 a c d)).trans
    (Finset.sum_congr rfl fun k _ => congrArg src (lift_axis1 h a c d k))

/-- The host's float sum over axis 1 from the initial value `init`, read at (a, c, d): `init` plus the sum over the
    reduced coordinate of the operand at (a, ·, c, d). -/
theorem hostReduceAdd_axis1 {n0 n1 n2 n3 : Nat}
    (h' : (⟨4, ![n0, n1, n2, n3]⟩ : Shape).ReducesTo [(1 : Fin 4)] ⟨3, ![n0, n2, n3]⟩)
    (h : (⟨4, ![n0, n1, n2, n3]⟩ : Shape).Reduces [(1 : Fin 4)] ⟨3, ![n0, n2, n3]⟩)
    (x : (⟨4, ![n0, n1, n2, n3]⟩ : Shape).Idx → EReal) (init : EReal) (a : Fin n0) (c : Fin n2) (d : Fin n3) :
    Ideal.hostReduceAdd h' x init (ix3 a c d) = init + ∑ k : Fin n1, x (ix4 a k c d) :=
  (Ideal.hostReduceAdd_single h' h x init (ix3 a c d)).trans
    (congrArg (init + ·) (Finset.sum_congr rfl fun k _ => congrArg x (lift_axis1 h a c d k)))

end Cert.LibAxis1

end
-- ==== Proof.KernelValue.lean ====
/-
  The kernel's value: after the run, the output array is the specification's function of the input array and of the
  mask as the region finds it.

  The grid has 16 × 4 points; point (b, q) stages the input's block [b, all 256 channels, rows 32q … 32q+31, all 128
  columns], the mask's block [b, 0, the same rows, all columns], and writes back the output's block at the input's
  place. Inside a block the body adds to every entry the mask times the channel sum times 2⁻⁸; the channel sum is
  entirely inside the block (all 256 channels are staged), so what point (b, q) writes at block position (0, c, r, w)
  is the specification at (b, c, 32q + r, w). The 64 blocks tile the array, so the array after the run is the
  specification everywhere.
-/
import proofs.«134350_j70420283785392_1_alg».proof.Proof.Gen.KernelIdeal.Value
import proofs.«134350_j70420283785392_1_alg».proof.Proof.Spec
import proofs.«134350_j70420283785392_1_alg».proof.Proof.LibAxis1
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.ExciteValue

open Cert.KernelIdeal Cert.KernelIdeal.Gen Cert.KernelIdeal.Value Cert.Excite
open Idealize.ShloMosaic Idealize.ShloMosaic.TcCoe Idealize.SL.Sem Idealize.ShloMosaic.ValueIdx
open Idealize.ShloMosaic.Pipeline (Dat)

theorem hz4 : (![0, 0, 0, 0] : Fin 4 → Nat) = fun _ => 0 := funext fun a => by fin_cases a <;> rfl

/-! ## One block -/

/-- What the body leaves at block position (0, c, r, w), when its two loaded blocks are the input at (b, ·, H + ·, ·)
    and the mask at (b, 0, H + ·, ·): the specification at (b, c, H + r, w). The channel sum of the block is the
    channel sum of the array because the block holds all 256 channels. -/
theorem block_value (X : SX.Idx → EReal) (M : SM.Idx → EReal)
    (P0 : Vec Ideal S1x256x32x128 .f32) (P1 : Vec Ideal S1x1x32x128 .f32) (b : Fin 16) (H : Nat) (hH : H + 32 ≤ 128)
    (hP0 : ∀ (k : Fin 256) (r : Fin 32) (w : Fin 128),
      P0 (ix4 (0 : Fin 1) k r w) = X (ix4 b k ⟨H + r.val, by omega⟩ w))
    (hP1 : ∀ (r : Fin 32) (w : Fin 128),
      P1 (ix4 (0 : Fin 1) (0 : Fin 1) r w) = M (ix4 b (0 : Fin 1) ⟨H + r.val, by omega⟩ w))
    (c : Fin 256) (r : Fin 32) (w : Fin 128) :
    E2 P0 P1 (ix4 (0 : Fin 1) c r w) = exciteAt X M b c ⟨H + r.val, by omega⟩ w := by
  have e0 : ix2_0 (ix4 (0 : Fin 1) c r w) = ix4 (0 : Fin 1) c r w := by
    funext a; apply Fin.ext
    match a with | ⟨0, _⟩ => rfl | ⟨1, _⟩ => rfl | ⟨2, _⟩ => rfl | ⟨3, _⟩ => rfl
  have e1 : ix2_1 (ix4 (0 : Fin 1) c r w) = ix4 (0 : Fin 1) (0 : Fin 1) r w := by
    funext a; apply Fin.ext
    match a with | ⟨0, _⟩ => rfl | ⟨1, _⟩ => rfl | ⟨2, _⟩ => rfl | ⟨3, _⟩ => rfl
  have e2 : ix2_2 (ix4 (0 : Fin 1) c r w) = ix3 (0 : Fin 1) r w := by
    funext a; apply Fin.ext
    match a with | ⟨0, _⟩ => rfl | ⟨1, _⟩ => rfl | ⟨2, _⟩ => rfl
  have hs : multiReduction (F := Ideal) .add [1] S1x32x128 P0 0x00000000#32 reduces_S1x256x32x128_S1x32x128 (.inl rfl) rfl
        (ix3 (0 : Fin 1) r w)
      = ∑ k : Fin 256, X (ix4 b k ⟨H + r.val, by omega⟩ w) :=
    (Cert.LibAxis1.multiReduction_add_axis1 P0 0x00000000#32 reduces_S1x256x32x128_S1x32x128 (.inl rfl) rfl
      (0 : Fin 1) r w).trans (Finset.sum_congr rfl fun k _ => hP0 k r w)
  show P0 (ix2_0 (ix4 (0 : Fin 1) c r w))
      + (Ideal.ofBits .f32 0x3F800000#32 * P1 (ix2_1 (ix4 (0 : Fin 1) c r w)))
        * (multiReduction (F := Ideal) .add [1] S1x32x128 P0 0x00000000#32 reduces_S1x256x32x128_S1x32x128 (.inl rfl) rfl
            (ix2_2 (ix4 (0 : Fin 1) c r w)) * Ideal.ofBits .f32 0x3B800000#32) = _
  rw [e0, e1, e2, hs, hP0, hP1]
  rfl

/-! ## The index maps, decided over the grid -/

variable (m : (ℓ : Loc nD τ sig) → Buf (Elt Ideal) ℓ) (ρ : Dev nD → PrngReg)

/-- At every point the input's and the mask's blocks sit where the output's does (same image, same band of rows), the
    channel and column block indices are 0, and the image index is below 16 and the band index below 4. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 15 ∧ win0_2.index t (2 : Fin 4) ≤ 3 :=
  (by decide +kernel : ∀ t : Fin grid0.N, _)

/-- Every (image, band) pair is some point's output block. -/
theorem idx_onto : ∀ (q0 : Fin 16) (q2 : Fin 4), ∃ t : Fin cfg0.N, win0_2.index t = ![q0.val, 0, q2.val, 0] :=
  (by decide +kernel : ∀ (q0 : Fin 16) (q2 : Fin 4), ∃ t : Fin grid0.N, win0_2.index t = ![q0.val, 0, q2.val, 0])

/-! ## One point -/

/-- What point `t` leaves at block position `y` is the specification at the array index under `y`. -/
theorem point_value (c : Dev nD) (t : Fin cfg0.N) (y : S1x256x32x128.Idx) :
    (View.canon ([⟨r0_0, k0_pay1 (F := Ideal) (iblk m c 0 t) (iblk m c 1 t)⟩] :
        List (View.Piece (Elt Ideal) S1x256x32x128 .f32)) : Vec Ideal S1x256x32x128 .f32) y
      = excite (V m c main_arg0) (V m c main_v84) (((cfg0.win 2).blk t).view.emb y) := by
  obtain ⟨f0, f1, f2, f3, g0, g1, g2, g3, o1, o3, b0, b2⟩ := idx_facts t
  refine (canon2_eq (iblk m c 0 t) (iblk m c 1 t) y).trans ?_
  obtain ⟨z, k, r, w, rfl⟩ : ∃ (z : Fin 1) (k : Fin 256) (r : Fin 32) (w : Fin 128), y = ix4 z k r w :=
    ⟨y 0, y 1, y 2, y 3, eq_ix4 y⟩
  obtain rfl : z = 0 := Subsingleton.elim _ _
  have hb : win0_2.index t (0 : Fin 4) < 16 := by omega
  have hH : win0_2.index t (2 : Fin 4) * 32 + 32 ≤ 128 := by omega
  refine (block_value (V m c main_arg0) (V m c main_v84) (iblk m c 0 t) (iblk m c 1 t)
    ⟨win0_2.index t (0 : Fin 4), hb⟩ (win0_2.index t (2 : Fin 4) * 32) hH ?_ ?_ k r w).trans ?_
  · intro k r w
    show V m c main_arg0 (((cfg0.win 0).blk t).view.emb (ix4 (0 : Fin 1) k r w)) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 256 + 1 * k.val = k.val; omega
    | ⟨2, _⟩ => show win0_0.index t (2 : Fin 4) * 32 + 1 * r.val = win0_2.index t (2 : Fin 4) * 32 + r.val; omega
    | ⟨3, _⟩ => show win0_0.index t (3 : Fin 4) * 128 + 1 * w.val = w.val; omega
  · intro r w
    show V m c main_v84 (((cfg0.win 1).blk t).view.emb (ix4 (0 : Fin 1) (0 : Fin 1) r w)) = _
    refine congrArg (V m c main_v84) (funext fun a => Fin.ext ?_)
    match a with
    | ⟨0, _⟩ => show win0_1.index t (0 : Fin 4) * 1 + 1 * 0 = win0_2.index t (0 : Fin 4); omega
    | ⟨1, _⟩ => show win0_1.index t (1 : Fin 4) * 1 + 1 * 0 = 0; omega
    | ⟨2, _⟩ => show win0_1.index t (2 : Fin 4) * 32 + 1 * r.val = win0_2.index t (2 : Fin 4) * 32 + r.val; omega
    | ⟨3, _⟩ => show win0_1.index t (3 : Fin 4) * 128 + 1 * w.val = w.val; omega
  · show exciteAt _ _ _ _ _ _ = exciteAt _ _ _ _ _ _
    congr 1
    · apply Fin.ext
      show win0_2.index t (0 : Fin 4) = win0_2.index t (0 : Fin 4) * 1 + 1 * 0; omega
    · apply Fin.ext
      show k.val = win0_2.index t (1 : Fin 4) * 256 + 1 * k.val; omega
    · apply Fin.ext
      show win0_2.index t (2 : Fin 4) * 32 + r.val = win0_2.index t (2 : Fin 4) * 32 + 1 * r.val; omega
    · apply Fin.ext
      show w.val = win0_2.index t (3 : Fin 4) * 128 + 1 * w.val; omega

/-- WHAT POINT `t` WRITES BACK is block `t` of the specification of the arrays as the region finds them. -/
theorem flushed_eq (c : Dev nD) (t : Fin cfg0.N) :
    (dats m 0 c).flushed 2 t
      = ((cfg0.win 2).blk t).view.read (Elt Ideal) (excite (V m c main_arg0) (V m c main_v84)) := by
  rw [flushed2]
  unfold out0_2
  simp only [View.ld_unit_zero (S := S1x256x32x128) hz4, View.ld_unit_zero (S := S1x1x32x128) hz4]
  funext j
  exact point_value m c t j

/-! ## The blocks tile the array -/

/-- An index of the array is in point `t`'s block iff each coordinate is in the block's range on its axis. -/
theorem mem_blk (t : Fin cfg0.N) (i : S16x256x128x128.Idx) :
    i ∈ ((cfg0.win 2).blk t).view.set ↔ ∀ a : Fin 4, win0_2.index t a * S1x256x32x128.size a ≤ (i a).val
      ∧ (i a).val < win0_2.index t a * S1x256x32x128.size a + S1x256x32x128.size a := by
  show i ∈ ((View.whole main_v85).slice (win0_2.rect t)).set ↔ _
  rw [View.set_slice_whole, Rect.mem_set_unit]
  exact Iff.rfl

/-- Every index lies in the block of the point of its image and of its band of 32 rows. -/
theorem cover (i : S16x256x128x128.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-! ## The array after the run, and the run -/

/-- THE OUTPUT ARRAY after the run: the specification of the launched input and of the mask as the region finds it. -/
theorem final (c : Dev nD) :
    (dats m 0 c).arrAt 2 cfg0.N = excite (m ((c : Thread nD τ).loc main_arg0)) (V m c main_v84) :=
  ((dats m 0 c).arrAt_eq_of_cover 2 (excite (V m c main_arg0) (V m c main_v84))
      (fun t _ => flushed_eq m c t) cover).trans
    (congrArg (fun x => excite x (V m c main_v84)) (V_main_arg0 m c))

/-- The kernel's run: the result is the specification, the arguments are unchanged. -/
theorem run : θ_run defs (onTc (τ := τ) (main (F := Ideal))) ⟨m, fun _ => 0, ρ⟩ fun r => ∀ c : Dev nD,
      r.2.mem ((c : Thread nD τ).loc main_v85) = excite (m ((c : Thread nD τ).loc main_arg0)) (V m c main_v84)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ExciteValue

end
-- ==== Proof.RefOps.lean ====
/-
  The reference's @main as ONE straight line of host operations.

  The reference computes, on the host, first the per-image box mask — from the boxes (centre, width, height, each
  scaled to the 128 × 128 grid and truncated toward zero, clamped into the grid) the rows and columns every box
  covers, summed per image over the boxes the index vector assigns to it and clipped into [0, 1] — and then the
  excitation: the sum of the input over the 256 channels, divided by 256, times the mask, added back to every channel.
  The functions jax outlined (truncation toward zero as a select between ceiling and floor; the clip as a maximum then
  a minimum) are written out at their call sites over each call's own buffers, so the whole program is a list of
  operations: the first 125 (maskOps) end in the mask laid out as [16, 1, 128, 128], the last 12 (exciteOps) are the
  channel mean and the final sum.
-/
import proofs.«134350_j70420283785392_1_alg».proof.Proof.Gen.ReferenceIdeal
import Idealize.ShloMosaic.Lib.StableHlo.Run

set_option maxRecDepth 16384

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- The operations that build the mask: box corners, row and column coverage, the per-image sum, the clip, and the
    layout [16, 128, 128] → [16, 1, 128, 128]. -/
abbrev maskOps : List (HloOp τ sig (Elt F)) :=
  ( StableHlo.unary main_arg1 main_v0 ((extractStridedSlice S320x1 ![0, 0] · slices_S320x4_S320x1_0_0) : (⟨S320x4, .f32⟩ : BufTy).Contents (Elt F) → (⟨S320x1, .f32⟩ : BufTy).Contents (Elt F))
  :: StableHlo.reshape main_v0 main_v1 rfl shapeCasts_S320x1_S320
  :: StableHlo.unary main_arg1 main_v2 ((extractStridedSlice S320x1 ![0, 1] · slices_S320x4_S320x1_0_1) : (⟨S320x4, .f32⟩ : BufTy).Contents (Elt F) → (⟨S320x1, .f32⟩ : BufTy).Contents (Elt F))
  :: StableHlo.reshape main_v2 main_v3 rfl shapeCasts_S320x1_S320
  :: StableHlo.unary main_arg1 main_v4 ((extractStridedSlice S320x1 ![0, 2] · slices_S320x4_S320x1_0_2) : (⟨S320x4, .f32⟩ : BufTy).Contents (Elt F) → (⟨S320x1, .f32⟩ : BufTy).Contents (Elt F))
  :: StableHlo.reshape main_v4 main_v5 rfl shapeCasts_S320x1_S320
  :: StableHlo.unary main_arg1 main_v6 ((extractStridedSlice S320x1 ![0, 3] · slices_S320x4_S320x1_0_3) : (⟨S320x4, .f32⟩ : BufTy).Contents (Elt F) → (⟨S320x1, .f32⟩ : BufTy).Contents (Elt F))
  :: StableHlo.reshape main_v6 main_v7 rfl shapeCasts_S320x1_S320
  :: StableHlo.nullary main_cst (constant S_ .f32 0x40000000#32)
  :: StableHlo.unary main_cst main_v8 (broadcastInDim S320 ![] bcast_S_S320 : (⟨S_, .f32⟩ : BufTy).Contents (Elt F) → (⟨S320, .f32⟩ : BufTy).Contents (Elt F))
  :: StableHlo.binary main_v5 main_v8 main_v9 (Host.divf : (⟨S320, .f32⟩ : BufTy).Contents (Elt F) → (⟨S320, .f32⟩ : BufTy).Contents (Elt F) → (⟨S320, .f32⟩ : BufTy).Contents (Elt F))
  :: StableHlo.binary main_v1 main_v9 main_v10 (subf : (⟨S320, .f32⟩ : BufTy).Contents (Elt F) → (⟨S320, .f32⟩ : BufTy).Contents (Elt F) → (⟨S320, .f32⟩ : BufTy).Contents (Elt F))
  :: StableHlo.nullary main_cst_0 (constant S_ .f32 0x43000000#32)
  :: StableHlo.unary main_cst_0 main_v11 (broadcastInDim S320 ![] bcast_S_S320 : (⟨S_, .f32⟩ : BufTy).Contents (Elt F) → (⟨S320, .f32⟩ : BufTy).Contents (Elt F))
  :: StableHlo.binary main_v10 main_v11 main_v12 (mulf : (⟨S320, .f32⟩ : BufTy).Contents (Elt F) → (⟨S320, .f32⟩ : BufTy).Contents (Elt F) → (⟨S320, .f32⟩ : BufTy).Contents (Elt F))
  :: StableHlo.TRef.nullary main_call0.cst (constant S_ .f32 0x00000000#32)
  :: StableHlo.TRef.unary main_call0.cst main_call0.v0 (broadcastInDim S320 ![] bcast_S_S320)
  :: StableHlo.TRef.binary (.of main_v12 : StableHlo.TRef sig ⟨S320, .f32⟩) main_call0.v0 main_call0.v1 (cmpf .olt)
  :: StableHlo.TRef.unary (.of main_v12 : StableHlo.TRef sig ⟨S320, .f32⟩) main_call0.v2 Host.ceil
  :: StableHlo.TRef.unary (.of main_v12 : StableHlo.TRef sig ⟨S320, .f32⟩) main_call0.v3 Host.floor
  :: StableHlo.TRef.ternary main_call0.v1 main_call0.v2 main_call0.v3 main_call0.call0.v0 select
  :: StableHlo.unary main_v13 main_v14 (fptosi 32 : (⟨S320, .f32⟩ : BufTy).Contents (Elt F) → (⟨S320, .i32⟩ : BufTy).Contents (Elt F))
  :: StableHlo.nullary main_c (constantI S_ 32 0#32)
  :: StableHlo.unary main_c main_v15 (broadcastInDim S320 ![] bcast_S_S320 : (⟨S_, .i32⟩ : BufTy).Contents (Elt F) → (⟨S320, .i32⟩ : BufTy).Contents (Elt F))
  :: StableHlo.binary main_v15 main_v14 main_v16 (maxsi : (⟨S320, .i32⟩ : BufTy).Contents (Elt F) → (⟨S320, .i32⟩ : BufTy).Contents (Elt F) → (⟨S320, .i32⟩ : BufTy).Contents (Elt F))
  :: StableHlo.nullary main_cst_1 (constant S_ .f32 0x40000000#32)
  :: StableHlo.unary main_cst_1 main_v17 (broadcastInDim S320 ![] bcast_S_S320 : (⟨S_, .f32⟩ : BufTy).Contents (Elt F) → (⟨S320, .f32⟩ : BufTy).Contents (Elt F))
  :: StableHlo.binary main_v7 main_v17 main_v18 (Host.divf : (⟨S320, .f32⟩ : BufTy).Contents (Elt F) → (⟨S320, .f32⟩ : BufTy).Contents (Elt F) → (⟨S320, .f32⟩ : BufTy).Contents (Elt F))
  :: StableHlo.binary main_v3 main_v18 main_v19 (subf : (⟨S320, .f32⟩ : BufTy).Contents (Elt F) → (⟨S320, .f32⟩ : BufTy).Contents (Elt F) → (⟨S320, .f32⟩ : BufTy).Contents (Elt F))
  :: StableHlo.nullary main_cst_2 (constant S_ .f32 0x43000000#32)
  :: StableHlo.unary main_cst_2 main_v20 (broadcastInDim S320 ![] bcast_S_S320 : (⟨S_, .f32⟩ : BufTy).Contents (Elt F) → (⟨S320, .f32⟩ : BufTy).Contents (Elt F))
  :: StableHlo.binary main_v19 main_v20 main_v21 (mulf : (⟨S320, .f32⟩ : BufTy).Contents (Elt F) → (⟨S320, .f32⟩ : BufTy).Contents (Elt F) → (⟨S320, .f32⟩ : BufTy).Contents (Elt F))
  :: StableHlo.TRef.nullary main_call1.cst (constant S_ .f32 0x00000000#32)
  :: StableHlo.TRef.unary main_call1.cst main_call1.v0 (broadcastInDim S320 ![] bcast_S_S320)
  :: StableHlo.TRef.binary (.of main_v21 : StableHlo.TRef sig ⟨S320, .f32⟩) main_call1.v0 main_call1.v1 (cmpf .olt)
  :: StableHlo.TRef.unary (.of main_v21 : StableHlo.TRef sig ⟨S320, .f32⟩) main_call1.v2 Host.ceil
  :: StableHlo.TRef.unary (.of main_v21 : StableHlo.TRef sig ⟨S320, .f32⟩) main_call1.v3 Host.floor
  :: StableHlo.TRef.ternary main_call1.v1 main_call1.v2 main_call1.v3 main_call1.call0.v0 select
  :: StableHlo.unary main_v22 main_v23 (fptosi 32 : (⟨S320, .f32⟩ : BufTy).Contents (Elt F) → (⟨S320, .i32⟩ : BufTy).Contents (Elt F))
  :: StableHlo.nullary main_c_3 (constantI S_ 32 0#32)
  :: StableHlo.unary main_c_3 main_v24 (broadcastInDim S320 ![] bcast_S_S320 : (⟨S_, .i32⟩ : BufTy).Contents (Elt F) → (⟨S320, .i32⟩ : BufTy).Contents (Elt F))
  :: StableHlo.binary main_v24 main_v23 main_v25 (maxsi : (⟨S320, .i32⟩ : BufTy).Contents (Elt F) → (⟨S320, .i32⟩ : BufTy).Contents (Elt F) → (⟨S320, .i32⟩ : BufTy).Contents (Elt F))
  :: StableHlo.nullary main_cst_4 (constant S_ .f32 0x40000000#32)
  :: StableHlo.unary main_cst_4 main_v26 (broadcastInDim S320 ![] bcast_S_S320 : (⟨S_, .f32⟩ : BufTy).Contents (Elt F) → (⟨S320, .f32⟩ : BufTy).Contents (Elt F))
  :: StableHlo.binary main_v5 main_v26 main_v27 (Host.divf : (⟨S320, .f32⟩ : BufTy).Contents (Elt F) → (⟨S320, .f32⟩ : BufTy).Contents (Elt F) → (⟨S320, .f32⟩ : BufTy).Contents (Elt F))
  :: StableHlo.binary main_v1 main_v27 main_v28 (addf : (⟨S320, .f32⟩ : BufTy).Contents (Elt F) → (⟨S320, .f32⟩ : BufTy).Contents (Elt F) → (⟨S320, .f32⟩ : BufTy).Contents (Elt F))
  :: StableHlo.nullary main_cst_5 (constant S_ .f32 0x43000000#32)
  :: StableHlo.unary main_cst_5 main_v29 (broadcastInDim S320 ![] bcast_S_S320 : (⟨S_, .f32⟩ : BufTy).Contents (Elt F) → (⟨S320, .f32⟩ : BufTy).Contents (Elt F))
  :: StableHlo.binary main_v28 main_v29 main_v30 (mulf : (⟨S320, .f32⟩ : BufTy).Contents (Elt F) → (⟨S320, .f32⟩ : BufTy).Contents (Elt F) → (⟨S320, .f32⟩ : BufTy).Contents (Elt F))
  :: StableHlo.TRef.nullary main_call2.cst (constant S_ .f32 0x00000000#32)
  :: StableHlo.TRef.unary main_call2.cst main_call2.v0 (broadcastInDim S320 ![] bcast_S_S320)
  :: StableHlo.TRef.binary (.of main_v30 : StableHlo.TRef sig ⟨S320, .f32⟩) main_call2.v0 main_call2.v1 (cmpf .olt)
  :: StableHlo.TRef.unary (.of main_v30 : StableHlo.TRef sig ⟨S320, .f32⟩) main_call2.v2 Host.ceil
  :: StableHlo.TRef.unary (.of main_v30 : StableHlo.TRef sig ⟨S320, .f32⟩) main_call2.v3 Host.floor
  :: StableHlo.TRef.ternary main_call2.v1 main_call2.v2 main_call2.v3 main_call2.call0.v0 select
  :: StableHlo.unary main_v31 main_v32 (fptosi 32 : (⟨S320, .f32⟩ : BufTy).Contents (Elt F) → (⟨S320, .i32⟩ : BufTy).Contents (Elt F))
  :: StableHlo.nullary main_c_6 (constantI S_ 32 127#32)
  :: StableHlo.unary main_c_6 main_v33 (broadcastInDim S320 ![] bcast_S_S320 : (⟨S_, .i32⟩ : BufTy).Contents (Elt F) → (⟨S320, .i32⟩ : BufTy).Contents (Elt F))
  :: StableHlo.binary main_v33 main_v32 main_v34 (minsi : (⟨S320, .i32⟩ : BufTy).Contents (Elt F) → (⟨S320, .i32⟩ : BufTy).Contents (Elt F) → (⟨S320, .i32⟩ : BufTy).Contents (Elt F))
  :: StableHlo.nullary main_cst_7 (constant S_ .f32 0x40000000#32)
  :: StableHlo.unary main_cst_7 main_v35 (broadcastInDim S320 ![] bcast_S_S320 : (⟨S_, .f32⟩ : BufTy).Contents (Elt F) → (⟨S320, .f32⟩ : BufTy).Contents (Elt F))
  :: StableHlo.binary main_v7 main_v35 main_v36 (Host.divf : (⟨S320, .f32⟩ : BufTy).Contents (Elt F) → (⟨S320, .f32⟩ : BufTy).Contents (Elt F) → (⟨S320, .f32⟩ : BufTy).Contents (Elt F))
  :: StableHlo.binary main_v3 main_v36 main_v37 (addf : (⟨S320, .f32⟩ : BufTy).Contents (Elt F) → (⟨S320, .f32⟩ : BufTy).Contents (Elt F) → (⟨S320, .f32⟩ : BufTy).Contents (Elt F))
  :: StableHlo.nullary main_cst_8 (constant S_ .f32 0x43000000#32)
  :: StableHlo.unary main_cst_8 main_v38 (broadcastInDim S320 ![] bcast_S_S320 : (⟨S_, .f32⟩ : BufTy).Contents (Elt F) → (⟨S320, .f32⟩ : BufTy).Contents (Elt F))
  :: StableHlo.binary main_v37 main_v38 main_v39 (mulf : (⟨S320, .f32⟩ : BufTy).Contents (Elt F) → (⟨S320, .f32⟩ : BufTy).Contents (Elt F) → (⟨S320, .f32⟩ : BufTy).Contents (Elt F))
  :: StableHlo.TRef.nullary main_call3.cst (constant S_ .f32 0x00000000#32)
  :: StableHlo.TRef.unary main_call3.cst main_call3.v0 (broadcastInDim S320 ![] bcast_S_S320)
  :: StableHlo.TRef.binary (.of main_v39 : StableHlo.TRef sig ⟨S320, .f32⟩) main_call3.v0 main_call3.v1 (cmpf .olt)
  :: StableHlo.TRef.unary (.of main_v39 : StableHlo.TRef sig ⟨S320, .f32⟩) main_call3.v2 Host.ceil
  :: StableHlo.TRef.unary (.of main_v39 : StableHlo.TRef sig ⟨S320, .f32⟩) main_call3.v3 Host.floor
  :: StableHlo.TRef.ternary main_call3.v1 main_call3.v2 main_call3.v3 main_call3.call0.v0 select
  :: StableHlo.unary main_v40 main_v41 (fptosi 32 : (⟨S320, .f32⟩ : BufTy).Contents (Elt F) → (⟨S320, .i32⟩ : BufTy).Contents (Elt F))
  :: StableHlo.nullary main_c_9 (constantI S_ 32 127#32)
  :: StableHlo.unary main_c_9 main_v42 (broadcastInDim S320 ![] bcast_S_S320 : (⟨S_, .i32⟩ : BufTy).Contents (Elt F) → (⟨S320, .i32⟩ : BufTy).Contents (Elt F))
  :: StableHlo.binary main_v42 main_v41 main_v43 (minsi : (⟨S320, .i32⟩ : BufTy).Contents (Elt F) → (⟨S320, .i32⟩ : BufTy).Contents (Elt F) → (⟨S320, .i32⟩ : BufTy).Contents (Elt F))
  :: StableHlo.binary main_v34 main_v16 main_v44 (cmpi .sgt : (⟨S320, .i32⟩ : BufTy).Contents (Elt F) → (⟨S320, .i32⟩ : BufTy).Contents (Elt F) → (⟨S320, .i1⟩ : BufTy).Contents (Elt F))
  :: StableHlo.binary main_v43 main_v25 main_v45 (cmpi .sgt : (⟨S320, .i32⟩ : BufTy).Contents (Elt F) → (⟨S320, .i32⟩ : BufTy).Contents (Elt F) → (⟨S320, .i1⟩ : BufTy).Contents (Elt F))
  :: StableHlo.binary main_v44 main_v45 main_v46 (andi : (⟨S320, .i1⟩ : BufTy).Contents (Elt F) → (⟨S320, .i1⟩ : BufTy).Contents (Elt F) → (⟨S320, .i1⟩ : BufTy).Contents (Elt F))
  :: StableHlo.nullary main_v47 (iotaInDim S128 32 0)
  :: StableHlo.nullary main_v48 (iotaInDim S128 32 0)
  :: StableHlo.unary main_v47 main_v49 (broadcastInDim S1x128 ![1] bcast_S128_S1x128_1 : (⟨S128, .i32⟩ : BufTy).Contents (Elt F) → (⟨S1x128, .i32⟩ : BufTy).Contents (Elt F))
  :: StableHlo.unary main_v25 main_v50 (broadcastInDim S320x1 ![0] bcast_S320_S320x1_0 : (⟨S320, .i32⟩ : BufTy).Contents (Elt F) → (⟨S320x1, .i32⟩ : BufTy).Contents (Elt F))
  :: StableHlo.unary main_v49 main_v51 (broadcastInDim S320x128 ![0, 1] bcast_S1x128_S320x128_0_1 : (⟨S1x128, .i32⟩ : BufTy).Contents (Elt F) → (⟨S320x128, .i32⟩ : BufTy).Contents (Elt F))
  :: StableHlo.unary main_v50 main_v52 (broadcastInDim S320x128 ![0, 1] bcast_S320x1_S320x128_0_1 : (⟨S320x1, .i32⟩ : BufTy).Contents (Elt F) → (⟨S320x128, .i32⟩ : BufTy).Contents (Elt F))
  :: StableHlo.binary main_v51 main_v52 main_v53 (cmpi .sge : (⟨S320x128, .i32⟩ : BufTy).Contents (Elt F) → (⟨S320x128, .i32⟩ : BufTy).Contents (Elt F) → (⟨S320x128, .i1⟩ : BufTy).Contents (Elt F))
  :: StableHlo.unary main_v47 main_v54 (broadcastInDim S1x128 ![1] bcast_S128_S1x128_1 : (⟨S128, .i32⟩ : BufTy).Contents (Elt F) → (⟨S1x128, .i32⟩ : BufTy).Contents (Elt F))
  :: StableHlo.unary main_v43 main_v55 (broadcastInDim S320x1 ![0] bcast_S320_S320x1_0 : (⟨S320, .i32⟩ : BufTy).Contents (Elt F) → (⟨S320x1, .i32⟩ : BufTy).Contents (Elt F))
  :: StableHlo.unary main_v54 main_v56 (broadcastInDim S320x128 ![0, 1] bcast_S1x128_S320x128_0_1 : (⟨S1x128, .i32⟩ : BufTy).Contents (Elt F) → (⟨S320x128, .i32⟩ : BufTy).Contents (Elt F))
  :: StableHlo.unary main_v55 main_v57 (broadcastInDim S320x128 ![0, 1] bcast_S320x1_S320x128_0_1 : (⟨S320x1, .i32⟩ : BufTy).Contents (Elt F) → (⟨S320x128, .i32⟩ : BufTy).Contents (Elt F))
  :: StableHlo.binary main_v56 main_v57 main_v58 (cmpi .sle : (⟨S320x128, .i32⟩ : BufTy).Contents (Elt F) → (⟨S320x128, .i32⟩ : BufTy).Contents (Elt F) → (⟨S320x128, .i1⟩ : BufTy).Contents (Elt F))
  :: StableHlo.binary main_v53 main_v58 main_v59 (andi : (⟨S320x128, .i1⟩ : BufTy).Contents (Elt F) → (⟨S320x128, .i1⟩ : BufTy).Contents (Elt F) → (⟨S320x128, .i1⟩ : BufTy).Contents (Elt F))
  :: StableHlo.unary main_v48 main_v60 (broadcastInDim S1x128 ![1] bcast_S128_S1x128_1 : (⟨S128, .i32⟩ : BufTy).Contents (Elt F) → (⟨S1x128, .i32⟩ : BufTy).Contents (Elt F))
  :: StableHlo.unary main_v16 main_v61 (broadcastInDim S320x1 ![0] bcast_S320_S320x1_0 : (⟨S320, .i32⟩ : BufTy).Contents (Elt F) → (⟨S320x1, .i32⟩ : BufTy).Contents (Elt F))
  :: StableHlo.unary main_v60 main_v62 (broadcastInDim S320x128 ![0, 1] bcast_S1x128_S320x128_0_1 : (⟨S1x128, .i32⟩ : BufTy).Contents (Elt F) → (⟨S320x128, .i32⟩ : BufTy).Contents (Elt F))
  :: StableHlo.unary main_v61 main_v63 (broadcastInDim S320x128 ![0, 1] bcast_S320x1_S320x128_0_1 : (⟨S320x1, .i32⟩ : BufTy).Contents (Elt F) → (⟨S320x128, .i32⟩ : BufTy).Contents (Elt F))
  :: StableHlo.binary main_v62 main_v63 main_v64 (cmpi .sge : (⟨S320x128, .i32⟩ : BufTy).Contents (Elt F) → (⟨S320x128, .i32⟩ : BufTy).Contents (Elt F) → (⟨S320x128, .i1⟩ : BufTy).Contents (Elt F))
  :: StableHlo.unary main_v48 main_v65 (broadcastInDim S1x128 ![1] bcast_S128_S1x128_1 : (⟨S128, .i32⟩ : BufTy).Contents (Elt F) → (⟨S1x128, .i32⟩ : BufTy).Contents (Elt F))
  :: StableHlo.unary main_v34 main_v66 (broadcastInDim S320x1 ![0] bcast_S320_S320x1_0 : (⟨S320, .i32⟩ : BufTy).Contents (Elt F) → (⟨S320x1, .i32⟩ : BufTy).Contents (Elt F))
  :: StableHlo.unary main_v65 main_v67 (broadcastInDim S320x128 ![0, 1] bcast_S1x128_S320x128_0_1 : (⟨S1x128, .i32⟩ : BufTy).Contents (Elt F) → (⟨S320x128, .i32⟩ : BufTy).Contents (Elt F))
  :: StableHlo.unary main_v66 main_v68 (broadcastInDim S320x128 ![0, 1] bcast_S320x1_S320x128_0_1 : (⟨S320x1, .i32⟩ : BufTy).Contents (Elt F) → (⟨S320x128, .i32⟩ : BufTy).Contents (Elt F))
  :: StableHlo.binary main_v67 main_v68 main_v69 (cmpi .sle : (⟨S320x128, .i32⟩ : BufTy).Contents (Elt F) → (⟨S320x128, .i32⟩ : BufTy).Contents (Elt F) → (⟨S320x128, .i1⟩ : BufTy).Contents (Elt F))
  :: StableHlo.binary main_v64 main_v69 main_v70 (andi : (⟨S320x128, .i1⟩ : BufTy).Contents (Elt F) → (⟨S320x128, .i1⟩ : BufTy).Contents (Elt F) → (⟨S320x128, .i1⟩ : BufTy).Contents (Elt F))
  :: StableHlo.unary main_v46 main_v71 (broadcastInDim S320x1x1 ![0] bcast_S320_S320x1x1_0 : (⟨S320, .i1⟩ : BufTy).Contents (Elt F) → (⟨S320x1x1, .i1⟩ : BufTy).Contents (Elt F))
  :: StableHlo.unary main_v59 main_v72 (broadcastInDim S320x128x1 ![0, 1] bcast_S320x128_S320x128x1_0_1 : (⟨S320x128, .i1⟩ : BufTy).Contents (Elt F) → (⟨S320x128x1, .i1⟩ : BufTy).Contents (Elt F))
  :: StableHlo.unary main_v71 main_v73 (broadcastInDim S320x128x1 ![0, 1, 2] bcast_S320x1x1_S320x128x1_0_1_2 : (⟨S320x1x1, .i1⟩ : BufTy).Contents (Elt F) → (⟨S320x128x1, .i1⟩ : BufTy).Contents (Elt F))
  :: StableHlo.binary main_v73 main_v72 main_v74 (andi : (⟨S320x128x1, .i1⟩ : BufTy).Contents (Elt F) → (⟨S320x128x1, .i1⟩ : BufTy).Contents (Elt F) → (⟨S320x128x1, .i1⟩ : BufTy).Contents (Elt F))
  :: StableHlo.unary main_v70 main_v75 (broadcastInDim S320x1x128 ![0, 2] bcast_S320x128_S320x1x128_0_2 : (⟨S320x128, .i1⟩ : BufTy).Contents (Elt F) → (⟨S320x1x128, .i1⟩ : BufTy).Contents (Elt F))
  :: StableHlo.unary main_v74 main_v76 (broadcastInDim S320x128x128 ![0, 1, 2] bcast_S320x128x1_S320x128x128_0_1_2 : (⟨S320x128x1, .i1⟩ : BufTy).Contents (Elt F) → (⟨S320x128x128, .i1⟩ : BufTy).Contents (Elt F))
  :: StableHlo.unary main_v75 main_v77 (broadcastInDim S320x128x128 ![0, 1, 2] bcast_S320x1x128_S320x128x128_0_1_2 : (⟨S320x1x128, .i1⟩ : BufTy).Contents (Elt F) → (⟨S320x128x128, .i1⟩ : BufTy).Contents (Elt F))
  :: StableHlo.binary main_v76 main_v77 main_v78 (andi : (⟨S320x128x128, .i1⟩ : BufTy).Contents (Elt F) → (⟨S320x128x128, .i1⟩ : BufTy).Contents (Elt F) → (⟨S320x128x128, .i1⟩ : BufTy).Contents (Elt F))
  :: StableHlo.unary main_v78 main_v79 (uitofp .f32 : (⟨S320x128x128, .i1⟩ : BufTy).Contents (Elt F) → (⟨S320x128x128, .f32⟩ : BufTy).Contents (Elt F))
  :: StableHlo.nullary main_cst_10 (constant S_ .f32 0x00000000#32)
  :: StableHlo.unary main_cst_10 main_v80 (broadcastInDim S16x128x128 ![] bcast_S_S16x128x128 : (⟨S_, .f32⟩ : BufTy).Contents (Elt F) → (⟨S16x128x128, .f32⟩ : BufTy).Contents (Elt F))
  :: StableHlo.unary main_arg2 main_v81 (broadcastInDim S320x1 ![0] bcast_S320_S320x1_0 : (⟨S320, .i32⟩ : BufTy).Contents (Elt F) → (⟨S320x1, .i32⟩ : BufTy).Contents (Elt F))
  :: StableHlo.ternary main_v80 main_v81 main_v79 main_v82 ((fun x i u => Host.scatterAdd scatter_S16x128x128_S320x1_S320x128x128_12_0_0_1 x i u) : (⟨S16x128x128, .f32⟩ : BufTy).Contents (Elt F) → (⟨S320x1, .i32⟩ : BufTy).Contents (Elt F) → (⟨S320x128x128, .f32⟩ : BufTy).Contents (Elt F) → (⟨S16x128x128, .f32⟩ : BufTy).Contents (Elt F))
  :: StableHlo.nullary main_cst_11 (constant S_ .f32 0x00000000#32)
  :: StableHlo.nullary main_cst_12 (constant S_ .f32 0x3F800000#32)
  :: StableHlo.TRef.unary (.of main_cst_11 : StableHlo.TRef sig ⟨S_, .f32⟩) main_call4.v0 id
  :: StableHlo.TRef.unary main_call4.v0 main_call4.v1 (broadcastInDim S16x128x128 ![] bcast_S_S16x128x128)
  :: StableHlo.TRef.binary main_call4.v1 (.of main_v82 : StableHlo.TRef sig ⟨S16x128x128, .f32⟩) main_call4.v2 maximumf
  :: StableHlo.TRef.unary (.of main_cst_12 : StableHlo.TRef sig ⟨S_, .f32⟩) main_call4.v3 id
  :: StableHlo.TRef.unary main_call4.v3 main_call4.v4 (broadcastInDim S16x128x128 ![] bcast_S_S16x128x128)
  :: StableHlo.TRef.binary main_call4.v4 main_call4.v2 main_call4.v5 minimumf
  :: StableHlo.unary main_v83 main_v84 (broadcastInDim S16x1x128x128 ![0, 2, 3] bcast_S16x128x128_S16x1x128x128_0_2_3 : (⟨S16x128x128, .f32⟩ : BufTy).Contents (Elt F) → (⟨S16x1x128x128, .f32⟩ : BufTy).Contents (Elt F))
  :: [] )

/-- The operations after the mask: the channel sum, its quotient by 256, the product with the mask (times the
    constant 1), the broadcast over the channels and the sum with the input. -/
abbrev exciteOps : List (HloOp τ sig (Elt F)) :=
  ( StableHlo.nullary main_cst_13 (constant S_ .f32 0x00000000#32)
  :: StableHlo.binary main_arg0 main_cst_13 main_v85 ((fun x v => Host.reduceAdd x v reducesTo_S16x256x128x128_S16x128x128_d1 h_S_) : (⟨S16x256x128x128, .f32⟩ : BufTy).Contents (Elt F) → (⟨S_, .f32⟩ : BufTy).Contents (Elt F) → (⟨S16x128x128, .f32⟩ : BufTy).Contents (Elt F))
  :: StableHlo.unary main_v85 main_v86 (broadcastInDim S16x1x128x128 ![0, 2, 3] bcast_S16x128x128_S16x1x128x128_0_2_3 : (⟨S16x128x128, .f32⟩ : BufTy).Contents (Elt F) → (⟨S16x1x128x128, .f32⟩ : BufTy).Contents (Elt F))
  :: StableHlo.nullary main_cst_14 (constant S_ .f32 0x43800000#32)
  :: StableHlo.unary main_cst_14 main_v87 (broadcastInDim S16x1x128x128 ![] bcast_S_S16x1x128x128 : (⟨S_, .f32⟩ : BufTy).Contents (Elt F) → (⟨S16x1x128x128, .f32⟩ : BufTy).Contents (Elt F))
  :: StableHlo.binary main_v86 main_v87 main_v88 (Host.divf : (⟨S16x1x128x128, .f32⟩ : BufTy).Contents (Elt F) → (⟨S16x1x128x128, .f32⟩ : BufTy).Contents (Elt F) → (⟨S16x1x128x128, .f32⟩ : BufTy).Contents (Elt F))
  :: StableHlo.nullary main_cst_15 (constant S_ .f32 0x3F800000#32)
  :: StableHlo.unary main_cst_15 main_v89 (broadcastInDim S16x1x128x128 ![] bcast_S_S16x1x128x128 : (⟨S_, .f32⟩ : BufTy).Contents (Elt F) → (⟨S16x1x128x128, .f32⟩ : BufTy).Contents (Elt F))
  :: StableHlo.binary main_v89 main_v84 main_v90 (mulf : (⟨S16x1x128x128, .f32⟩ : BufTy).Contents (Elt F) → (⟨S16x1x128x128, .f32⟩ : BufTy).Contents (Elt F) → (⟨S16x1x128x128, .f32⟩ : BufTy).Contents (Elt F))
  :: StableHlo.binary main_v90 main_v88 main_v91 (mulf : (⟨S16x1x128x128, .f32⟩ : BufTy).Contents (Elt F) → (⟨S16x1x128x128, .f32⟩ : BufTy).Contents (Elt F) → (⟨S16x1x128x128, .f32⟩ : BufTy).Contents (Elt F))
  :: StableHlo.unary main_v91 main_v92 (broadcastInDim S16x256x128x128 ![0, 1, 2, 3] bcast_S16x1x128x128_S16x256x128x128_0_1_2_3 : (⟨S16x1x128x128, .f32⟩ : BufTy).Contents (Elt F) → (⟨S16x256x128x128, .f32⟩ : BufTy).Contents (Elt F))
  :: StableHlo.binary main_arg0 main_v92 main_v93 (addf : (⟨S16x256x128x128, .f32⟩ : BufTy).Contents (Elt F) → (⟨S16x256x128x128, .f32⟩ : BufTy).Contents (Elt F) → (⟨S16x256x128x128, .f32⟩ : BufTy).Contents (Elt F))
  :: [] )

/-- @main's operations, in order. -/
abbrev ops : List (HloOp τ sig (Elt F)) :=
  ( StableHlo.unary main_arg1 main_v0 ((extractStridedSlice S320x1 ![0, 0] · slices_S320x4_S320x1_0_0) : (⟨S320x4, .f32⟩ : BufTy).Contents (Elt F) → (⟨S320x1, .f32⟩ : BufTy).Contents (Elt F))
  :: StableHlo.reshape main_v0 main_v1 rfl shapeCasts_S320x1_S320
  :: StableHlo.unary main_arg1 main_v2 ((extractStridedSlice S320x1 ![0, 1] · slices_S320x4_S320x1_0_1) : (⟨S320x4, .f32⟩ : BufTy).Contents (Elt F) → (⟨S320x1, .f32⟩ : BufTy).Contents (Elt F))
  :: StableHlo.reshape main_v2 main_v3 rfl shapeCasts_S320x1_S320
  :: StableHlo.unary main_arg1 main_v4 ((extractStridedSlice S320x1 ![0, 2] · slices_S320x4_S320x1_0_2) : (⟨S320x4, .f32⟩ : BufTy).Contents (Elt F) → (⟨S320x1, .f32⟩ : BufTy).Contents (Elt F))
  :: StableHlo.reshape main_v4 main_v5 rfl shapeCasts_S320x1_S320
  :: StableHlo.unary main_arg1 main_v6 ((extractStridedSlice S320x1 ![0, 3] · slices_S320x4_S320x1_0_3) : (⟨S320x4, .f32⟩ : BufTy).Contents (Elt F) → (⟨S320x1, .f32⟩ : BufTy).Contents (Elt F))
  :: StableHlo.reshape main_v6 main_v7 rfl shapeCasts_S320x1_S320
  :: StableHlo.nullary main_cst (constant S_ .f32 0x40000000#32)
  :: StableHlo.unary main_cst main_v8 (broadcastInDim S320 ![] bcast_S_S320 : (⟨S_, .f32⟩ : BufTy).Contents (Elt F) → (⟨S320, .f32⟩ : BufTy).Contents (Elt F))
  :: StableHlo.binary main_v5 main_v8 main_v9 (Host.divf : (⟨S320, .f32⟩ : BufTy).Contents (Elt F) → (⟨S320, .f32⟩ : BufTy).Contents (Elt F) → (⟨S320, .f32⟩ : BufTy).Contents (Elt F))
  :: StableHlo.binary main_v1 main_v9 main_v10 (subf : (⟨S320, .f32⟩ : BufTy).Contents (Elt F) → (⟨S320, .f32⟩ : BufTy).Contents (Elt F) → (⟨S320, .f32⟩ : BufTy).Contents (Elt F))
  :: StableHlo.nullary main_cst_0 (constant S_ .f32 0x43000000#32)
  :: StableHlo.unary main_cst_0 main_v11 (broadcastInDim S320 ![] bcast_S_S320 : (⟨S_, .f32⟩ : BufTy).Contents (Elt F) → (⟨S320, .f32⟩ : BufTy).Contents (Elt F))
  :: StableHlo.binary main_v10 main_v11 main_v12 (mulf : (⟨S320, .f32⟩ : BufTy).Contents (Elt F) → (⟨S320, .f32⟩ : BufTy).Contents (Elt F) → (⟨S320, .f32⟩ : BufTy).Contents (Elt F))
  :: StableHlo.TRef.nullary main_call0.cst (constant S_ .f32 0x00000000#32)
  :: StableHlo.TRef.unary main_call0.cst main_call0.v0 (broadcastInDim S320 ![] bcast_S_S320)
  :: StableHlo.TRef.binary (.of main_v12 : StableHlo.TRef sig ⟨S320, .f32⟩) main_call0.v0 main_call0.v1 (cmpf .olt)
  :: StableHlo.TRef.unary (.of main_v12 : StableHlo.TRef sig ⟨S320, .f32⟩) main_call0.v2 Host.ceil
  :: StableHlo.TRef.unary (.of main_v12 : StableHlo.TRef sig ⟨S320, .f32⟩) main_call0.v3 Host.floor
  :: StableHlo.TRef.ternary main_call0.v1 main_call0.v2 main_call0.v3 main_call0.call0.v0 select
  :: StableHlo.unary main_v13 main_v14 (fptosi 32 : (⟨S320, .f32⟩ : BufTy).Contents (Elt F) → (⟨S320, .i32⟩ : BufTy).Contents (Elt F))
  :: StableHlo.nullary main_c (constantI S_ 32 0#32)
  :: StableHlo.unary main_c main_v15 (broadcastInDim S320 ![] bcast_S_S320 : (⟨S_, .i32⟩ : BufTy).Contents (Elt F) → (⟨S320, .i32⟩ : BufTy).Contents (Elt F))
  :: StableHlo.binary main_v15 main_v14 main_v16 (maxsi : (⟨S320, .i32⟩ : BufTy).Contents (Elt F) → (⟨S320, .i32⟩ : BufTy).Contents (Elt F) → (⟨S320, .i32⟩ : BufTy).Contents (Elt F))
  :: StableHlo.nullary main_cst_1 (constant S_ .f32 0x40000000#32)
  :: StableHlo.unary main_cst_1 main_v17 (broadcastInDim S320 ![] bcast_S_S320 : (⟨S_, .f32⟩ : BufTy).Contents (Elt F) → (⟨S320, .f32⟩ : BufTy).Contents (Elt F))
  :: StableHlo.binary main_v7 main_v17 main_v18 (Host.divf : (⟨S320, .f32⟩ : BufTy).Contents (Elt F) → (⟨S320, .f32⟩ : BufTy).Contents (Elt F) → (⟨S320, .f32⟩ : BufTy).Contents (Elt F))
  :: StableHlo.binary main_v3 main_v18 main_v19 (subf : (⟨S320, .f32⟩ : BufTy).Contents (Elt F) → (⟨S320, .f32⟩ : BufTy).Contents (Elt F) → (⟨S320, .f32⟩ : BufTy).Contents (Elt F))
  :: StableHlo.nullary main_cst_2 (constant S_ .f32 0x43000000#32)
  :: StableHlo.unary main_cst_2 main_v20 (broadcastInDim S320 ![] bcast_S_S320 : (⟨S_, .f32⟩ : BufTy).Contents (Elt F) → (⟨S320, .f32⟩ : BufTy).Contents (Elt F))
  :: StableHlo.binary main_v19 main_v20 main_v21 (mulf : (⟨S320, .f32⟩ : BufTy).Contents (Elt F) → (⟨S320, .f32⟩ : BufTy).Contents (Elt F) → (⟨S320, .f32⟩ : BufTy).Contents (Elt F))
  :: StableHlo.TRef.nullary main_call1.cst (constant S_ .f32 0x00000000#32)
  :: StableHlo.TRef.unary main_call1.cst main_call1.v0 (broadcastInDim S320 ![] bcast_S_S320)
  :: StableHlo.TRef.binary (.of main_v21 : StableHlo.TRef sig ⟨S320, .f32⟩) main_call1.v0 main_call1.v1 (cmpf .olt)
  :: StableHlo.TRef.unary (.of main_v21 : StableHlo.TRef sig ⟨S320, .f32⟩) main_call1.v2 Host.ceil
  :: StableHlo.TRef.unary (.of main_v21 : StableHlo.TRef sig ⟨S320, .f32⟩) main_call1.v3 Host.floor
  :: StableHlo.TRef.ternary main_call1.v1 main_call1.v2 main_call1.v3 main_call1.call0.v0 select
  :: StableHlo.unary main_v22 main_v23 (fptosi 32 : (⟨S320, .f32⟩ : BufTy).Contents (Elt F) → (⟨S320, .i32⟩ : BufTy).Contents (Elt F))
  :: StableHlo.nullary main_c_3 (constantI S_ 32 0#32)
  :: StableHlo.unary main_c_3 main_v24 (broadcastInDim S320 ![] bcast_S_S320 : (⟨S_, .i32⟩ : BufTy).Contents (Elt F) → (⟨S320, .i32⟩ : BufTy).Contents (Elt F))
  :: StableHlo.binary main_v24 main_v23 main_v25 (maxsi : (⟨S320, .i32⟩ : BufTy).Contents (Elt F) → (⟨S320, .i32⟩ : BufTy).Contents (Elt F) → (⟨S320, .i32⟩ : BufTy).Contents (Elt F))
  :: StableHlo.nullary main_cst_4 (constant S_ .f32 0x40000000#32)
  :: StableHlo.unary main_cst_4 main_v26 (broadcastInDim S320 ![] bcast_S_S320 : (⟨S_, .f32⟩ : BufTy).Contents (Elt F) → (⟨S320, .f32⟩ : BufTy).Contents (Elt F))
  :: StableHlo.binary main_v5 main_v26 main_v27 (Host.divf : (⟨S320, .f32⟩ : BufTy).Contents (Elt F) → (⟨S320, .f32⟩ : BufTy).Contents (Elt F) → (⟨S320, .f32⟩ : BufTy).Contents (Elt F))
  :: StableHlo.binary main_v1 main_v27 main_v28 (addf : (⟨S320, .f32⟩ : BufTy).Contents (Elt F) → (⟨S320, .f32⟩ : BufTy).Contents (Elt F) → (⟨S320, .f32⟩ : BufTy).Contents (Elt F))
  :: StableHlo.nullary main_cst_5 (constant S_ .f32 0x43000000#32)
  :: StableHlo.unary main_cst_5 main_v29 (broadcastInDim S320 ![] bcast_S_S320 : (⟨S_, .f32⟩ : BufTy).Contents (Elt F) → (⟨S320, .f32⟩ : BufTy).Contents (Elt F))
  :: StableHlo.binary main_v28 main_v29 main_v30 (mulf : (⟨S320, .f32⟩ : BufTy).Contents (Elt F) → (⟨S320, .f32⟩ : BufTy).Contents (Elt F) → (⟨S320, .f32⟩ : BufTy).Contents (Elt F))
  :: StableHlo.TRef.nullary main_call2.cst (constant S_ .f32 0x00000000#32)
  :: StableHlo.TRef.unary main_call2.cst main_call2.v0 (broadcastInDim S320 ![] bcast_S_S320)
  :: StableHlo.TRef.binary (.of main_v30 : StableHlo.TRef sig ⟨S320, .f32⟩) main_call2.v0 main_call2.v1 (cmpf .olt)
  :: StableHlo.TRef.unary (.of main_v30 : StableHlo.TRef sig ⟨S320, .f32⟩) main_call2.v2 Host.ceil
  :: StableHlo.TRef.unary (.of main_v30 : StableHlo.TRef sig ⟨S320, .f32⟩) main_call2.v3 Host.floor
  :: StableHlo.TRef.ternary main_call2.v1 main_call2.v2 main_call2.v3 main_call2.call0.v0 select
  :: StableHlo.unary main_v31 main_v32 (fptosi 32 : (⟨S320, .f32⟩ : BufTy).Contents (Elt F) → (⟨S320, .i32⟩ : BufTy).Contents (Elt F))
  :: StableHlo.nullary main_c_6 (constantI S_ 32 127#32)
  :: StableHlo.unary main_c_6 main_v33 (broadcastInDim S320 ![] bcast_S_S320 : (⟨S_, .i32⟩ : BufTy).Contents (Elt F) → (⟨S320, .i32⟩ : BufTy).Contents (Elt F))
  :: StableHlo.binary main_v33 main_v32 main_v34 (minsi : (⟨S320, .i32⟩ : BufTy).Contents (Elt F) → (⟨S320, .i32⟩ : BufTy).Contents (Elt F) → (⟨S320, .i32⟩ : BufTy).Contents (Elt F))
  :: StableHlo.nullary main_cst_7 (constant S_ .f32 0x40000000#32)
  :: StableHlo.unary main_cst_7 main_v35 (broadcastInDim S320 ![] bcast_S_S320 : (⟨S_, .f32⟩ : BufTy).Contents (Elt F) → (⟨S320, .f32⟩ : BufTy).Contents (Elt F))
  :: StableHlo.binary main_v7 main_v35 main_v36 (Host.divf : (⟨S320, .f32⟩ : BufTy).Contents (Elt F) → (⟨S320, .f32⟩ : BufTy).Contents (Elt F) → (⟨S320, .f32⟩ : BufTy).Contents (Elt F))
  :: StableHlo.binary main_v3 main_v36 main_v37 (addf : (⟨S320, .f32⟩ : BufTy).Contents (Elt F) → (⟨S320, .f32⟩ : BufTy).Contents (Elt F) → (⟨S320, .f32⟩ : BufTy).Contents (Elt F))
  :: StableHlo.nullary main_cst_8 (constant S_ .f32 0x43000000#32)
  :: StableHlo.unary main_cst_8 main_v38 (broadcastInDim S320 ![] bcast_S_S320 : (⟨S_, .f32⟩ : BufTy).Contents (Elt F) → (⟨S320, .f32⟩ : BufTy).Contents (Elt F))
  :: StableHlo.binary main_v37 main_v38 main_v39 (mulf : (⟨S320, .f32⟩ : BufTy).Contents (Elt F) → (⟨S320, .f32⟩ : BufTy).Contents (Elt F) → (⟨S320, .f32⟩ : BufTy).Contents (Elt F))
  :: StableHlo.TRef.nullary main_call3.cst (constant S_ .f32 0x00000000#32)
  :: StableHlo.TRef.unary main_call3.cst main_call3.v0 (broadcastInDim S320 ![] bcast_S_S320)
  :: StableHlo.TRef.binary (.of main_v39 : StableHlo.TRef sig ⟨S320, .f32⟩) main_call3.v0 main_call3.v1 (cmpf .olt)
  :: StableHlo.TRef.unary (.of main_v39 : StableHlo.TRef sig ⟨S320, .f32⟩) main_call3.v2 Host.ceil
  :: StableHlo.TRef.unary (.of main_v39 : StableHlo.TRef sig ⟨S320, .f32⟩) main_call3.v3 Host.floor
  :: StableHlo.TRef.ternary main_call3.v1 main_call3.v2 main_call3.v3 main_call3.call0.v0 select
  :: StableHlo.unary main_v40 main_v41 (fptosi 32 : (⟨S320, .f32⟩ : BufTy).Contents (Elt F) → (⟨S320, .i32⟩ : BufTy).Contents (Elt F))
  :: StableHlo.nullary main_c_9 (constantI S_ 32 127#32)
  :: StableHlo.unary main_c_9 main_v42 (broadcastInDim S320 ![] bcast_S_S320 : (⟨S_, .i32⟩ : BufTy).Contents (Elt F) → (⟨S320, .i32⟩ : BufTy).Contents (Elt F))
  :: StableHlo.binary main_v42 main_v41 main_v43 (minsi : (⟨S320, .i32⟩ : BufTy).Contents (Elt F) → (⟨S320, .i32⟩ : BufTy).Contents (Elt F) → (⟨S320, .i32⟩ : BufTy).Contents (Elt F))
  :: StableHlo.binary main_v34 main_v16 main_v44 (cmpi .sgt : (⟨S320, .i32⟩ : BufTy).Contents (Elt F) → (⟨S320, .i32⟩ : BufTy).Contents (Elt F) → (⟨S320, .i1⟩ : BufTy).Contents (Elt F))
  :: StableHlo.binary main_v43 main_v25 main_v45 (cmpi .sgt : (⟨S320, .i32⟩ : BufTy).Contents (Elt F) → (⟨S320, .i32⟩ : BufTy).Contents (Elt F) → (⟨S320, .i1⟩ : BufTy).Contents (Elt F))
  :: StableHlo.binary main_v44 main_v45 main_v46 (andi : (⟨S320, .i1⟩ : BufTy).Contents (Elt F) → (⟨S320, .i1⟩ : BufTy).Contents (Elt F) → (⟨S320, .i1⟩ : BufTy).Contents (Elt F))
  :: StableHlo.nullary main_v47 (iotaInDim S128 32 0)
  :: StableHlo.nullary main_v48 (iotaInDim S128 32 0)
  :: StableHlo.unary main_v47 main_v49 (broadcastInDim S1x128 ![1] bcast_S128_S1x128_1 : (⟨S128, .i32⟩ : BufTy).Contents (Elt F) → (⟨S1x128, .i32⟩ : BufTy).Contents (Elt F))
  :: StableHlo.unary main_v25 main_v50 (broadcastInDim S320x1 ![0] bcast_S320_S320x1_0 : (⟨S320, .i32⟩ : BufTy).Contents (Elt F) → (⟨S320x1, .i32⟩ : BufTy).Contents (Elt F))
  :: StableHlo.unary main_v49 main_v51 (broadcastInDim S320x128 ![0, 1] bcast_S1x128_S320x128_0_1 : (⟨S1x128, .i32⟩ : BufTy).Contents (Elt F) → (⟨S320x128, .i32⟩ : BufTy).Contents (Elt F))
  :: StableHlo.unary main_v50 main_v52 (broadcastInDim S320x128 ![0, 1] bcast_S320x1_S320x128_0_1 : (⟨S320x1, .i32⟩ : BufTy).Contents (Elt F) → (⟨S320x128, .i32⟩ : BufTy).Contents (Elt F))
  :: StableHlo.binary main_v51 main_v52 main_v53 (cmpi .sge : (⟨S320x128, .i32⟩ : BufTy).Contents (Elt F) → (⟨S320x128, .i32⟩ : BufTy).Contents (Elt F) → (⟨S320x128, .i1⟩ : BufTy).Contents (Elt F))
  :: StableHlo.unary main_v47 main_v54 (broadcastInDim S1x128 ![1] bcast_S128_S1x128_1 : (⟨S128, .i32⟩ : BufTy).Contents (Elt F) → (⟨S1x128, .i32⟩ : BufTy).Contents (Elt F))
  :: StableHlo.unary main_v43 main_v55 (broadcastInDim S320x1 ![0] bcast_S320_S320x1_0 : (⟨S320, .i32⟩ : BufTy).Contents (Elt F) → (⟨S320x1, .i32⟩ : BufTy).Contents (Elt F))
  :: StableHlo.unary main_v54 main_v56 (broadcastInDim S320x128 ![0, 1] bcast_S1x128_S320x128_0_1 : (⟨S1x128, .i32⟩ : BufTy).Contents (Elt F) → (⟨S320x128, .i32⟩ : BufTy).Contents (Elt F))
  :: StableHlo.unary main_v55 main_v57 (broadcastInDim S320x128 ![0, 1] bcast_S320x1_S320x128_0_1 : (⟨S320x1, .i32⟩ : BufTy).Contents (Elt F) → (⟨S320x128, .i32⟩ : BufTy).Contents (Elt F))
  :: StableHlo.binary main_v56 main_v57 main_v58 (cmpi .sle : (⟨S320x128, .i32⟩ : BufTy).Contents (Elt F) → (⟨S320x128, .i32⟩ : BufTy).Contents (Elt F) → (⟨S320x128, .i1⟩ : BufTy).Contents (Elt F))
  :: StableHlo.binary main_v53 main_v58 main_v59 (andi : (⟨S320x128, .i1⟩ : BufTy).Contents (Elt F) → (⟨S320x128, .i1⟩ : BufTy).Contents (Elt F) → (⟨S320x128, .i1⟩ : BufTy).Contents (Elt F))
  :: StableHlo.unary main_v48 main_v60 (broadcastInDim S1x128 ![1] bcast_S128_S1x128_1 : (⟨S128, .i32⟩ : BufTy).Contents (Elt F) → (⟨S1x128, .i32⟩ : BufTy).Contents (Elt F))
  :: StableHlo.unary main_v16 main_v61 (broadcastInDim S320x1 ![0] bcast_S320_S320x1_0 : (⟨S320, .i32⟩ : BufTy).Contents (Elt F) → (⟨S320x1, .i32⟩ : BufTy).Contents (Elt F))
  :: StableHlo.unary main_v60 main_v62 (broadcastInDim S320x128 ![0, 1] bcast_S1x128_S320x128_0_1 : (⟨S1x128, .i32⟩ : BufTy).Contents (Elt F) → (⟨S320x128, .i32⟩ : BufTy).Contents (Elt F))
  :: StableHlo.unary main_v61 main_v63 (broadcastInDim S320x128 ![0, 1] bcast_S320x1_S320x128_0_1 : (⟨S320x1, .i32⟩ : BufTy).Contents (Elt F) → (⟨S320x128, .i32⟩ : BufTy).Contents (Elt F))
  :: StableHlo.binary main_v62 main_v63 main_v64 (cmpi .sge : (⟨S320x128, .i32⟩ : BufTy).Contents (Elt F) → (⟨S320x128, .i32⟩ : BufTy).Contents (Elt F) → (⟨S320x128, .i1⟩ : BufTy).Contents (Elt F))
  :: StableHlo.unary main_v48 main_v65 (broadcastInDim S1x128 ![1] bcast_S128_S1x128_1 : (⟨S128, .i32⟩ : BufTy).Contents (Elt F) → (⟨S1x128, .i32⟩ : BufTy).Contents (Elt F))
  :: StableHlo.unary main_v34 main_v66 (broadcastInDim S320x1 ![0] bcast_S320_S320x1_0 : (⟨S320, .i32⟩ : BufTy).Contents (Elt F) → (⟨S320x1, .i32⟩ : BufTy).Contents (Elt F))
  :: StableHlo.unary main_v65 main_v67 (broadcastInDim S320x128 ![0, 1] bcast_S1x128_S320x128_0_1 : (⟨S1x128, .i32⟩ : BufTy).Contents (Elt F) → (⟨S320x128, .i32⟩ : BufTy).Contents (Elt F))
  :: StableHlo.unary main_v66 main_v68 (broadcastInDim S320x128 ![0, 1] bcast_S320x1_S320x128_0_1 : (⟨S320x1, .i32⟩ : BufTy).Contents (Elt F) → (⟨S320x128, .i32⟩ : BufTy).Contents (Elt F))
  :: StableHlo.binary main_v67 main_v68 main_v69 (cmpi .sle : (⟨S320x128, .i32⟩ : BufTy).Contents (Elt F) → (⟨S320x128, .i32⟩ : BufTy).Contents (Elt F) → (⟨S320x128, .i1⟩ : BufTy).Contents (Elt F))
  :: StableHlo.binary main_v64 main_v69 main_v70 (andi : (⟨S320x128, .i1⟩ : BufTy).Contents (Elt F) → (⟨S320x128, .i1⟩ : BufTy).Contents (Elt F) → (⟨S320x128, .i1⟩ : BufTy).Contents (Elt F))
  :: StableHlo.unary main_v46 main_v71 (broadcastInDim S320x1x1 ![0] bcast_S320_S320x1x1_0 : (⟨S320, .i1⟩ : BufTy).Contents (Elt F) → (⟨S320x1x1, .i1⟩ : BufTy).Contents (Elt F))
  :: StableHlo.unary main_v59 main_v72 (broadcastInDim S320x128x1 ![0, 1] bcast_S320x128_S320x128x1_0_1 : (⟨S320x128, .i1⟩ : BufTy).Contents (Elt F) → (⟨S320x128x1, .i1⟩ : BufTy).Contents (Elt F))
  :: StableHlo.unary main_v71 main_v73 (broadcastInDim S320x128x1 ![0, 1, 2] bcast_S320x1x1_S320x128x1_0_1_2 : (⟨S320x1x1, .i1⟩ : BufTy).Contents (Elt F) → (⟨S320x128x1, .i1⟩ : BufTy).Contents (Elt F))
  :: StableHlo.binary main_v73 main_v72 main_v74 (andi : (⟨S320x128x1, .i1⟩ : BufTy).Contents (Elt F) → (⟨S320x128x1, .i1⟩ : BufTy).Contents (Elt F) → (⟨S320x128x1, .i1⟩ : BufTy).Contents (Elt F))
  :: StableHlo.unary main_v70 main_v75 (broadcastInDim S320x1x128 ![0, 2] bcast_S320x128_S320x1x128_0_2 : (⟨S320x128, .i1⟩ : BufTy).Contents (Elt F) → (⟨S320x1x128, .i1⟩ : BufTy).Contents (Elt F))
  :: StableHlo.unary main_v74 main_v76 (broadcastInDim S320x128x128 ![0, 1, 2] bcast_S320x128x1_S320x128x128_0_1_2 : (⟨S320x128x1, .i1⟩ : BufTy).Contents (Elt F) → (⟨S320x128x128, .i1⟩ : BufTy).Contents (Elt F))
  :: StableHlo.unary main_v75 main_v77 (broadcastInDim S320x128x128 ![0, 1, 2] bcast_S320x1x128_S320x128x128_0_1_2 : (⟨S320x1x128, .i1⟩ : BufTy).Contents (Elt F) → (⟨S320x128x128, .i1⟩ : BufTy).Contents (Elt F))
  :: StableHlo.binary main_v76 main_v77 main_v78 (andi : (⟨S320x128x128, .i1⟩ : BufTy).Contents (Elt F) → (⟨S320x128x128, .i1⟩ : BufTy).Contents (Elt F) → (⟨S320x128x128, .i1⟩ : BufTy).Contents (Elt F))
  :: StableHlo.unary main_v78 main_v79 (uitofp .f32 : (⟨S320x128x128, .i1⟩ : BufTy).Contents (Elt F) → (⟨S320x128x128, .f32⟩ : BufTy).Contents (Elt F))
  :: StableHlo.nullary main_cst_10 (constant S_ .f32 0x00000000#32)
  :: StableHlo.unary main_cst_10 main_v80 (broadcastInDim S16x128x128 ![] bcast_S_S16x128x128 : (⟨S_, .f32⟩ : BufTy).Contents (Elt F) → (⟨S16x128x128, .f32⟩ : BufTy).Contents (Elt F))
  :: StableHlo.unary main_arg2 main_v81 (broadcastInDim S320x1 ![0] bcast_S320_S320x1_0 : (⟨S320, .i32⟩ : BufTy).Contents (Elt F) → (⟨S320x1, .i32⟩ : BufTy).Contents (Elt F))
  :: StableHlo.ternary main_v80 main_v81 main_v79 main_v82 ((fun x i u => Host.scatterAdd scatter_S16x128x128_S320x1_S320x128x128_12_0_0_1 x i u) : (⟨S16x128x128, .f32⟩ : BufTy).Contents (Elt F) → (⟨S320x1, .i32⟩ : BufTy).Contents (Elt F) → (⟨S320x128x128, .f32⟩ : BufTy).Contents (Elt F) → (⟨S16x128x128, .f32⟩ : BufTy).Contents (Elt F))
  :: StableHlo.nullary main_cst_11 (constant S_ .f32 0x00000000#32)
  :: StableHlo.nullary main_cst_12 (constant S_ .f32 0x3F800000#32)
  :: StableHlo.TRef.unary (.of main_cst_11 : StableHlo.TRef sig ⟨S_, .f32⟩) main_call4.v0 id
  :: StableHlo.TRef.unary main_call4.v0 main_call4.v1 (broadcastInDim S16x128x128 ![] bcast_S_S16x128x128)
  :: StableHlo.TRef.binary main_call4.v1 (.of main_v82 : StableHlo.TRef sig ⟨S16x128x128, .f32⟩) main_call4.v2 maximumf
  :: StableHlo.TRef.unary (.of main_cst_12 : StableHlo.TRef sig ⟨S_, .f32⟩) main_call4.v3 id
  :: StableHlo.TRef.unary main_call4.v3 main_call4.v4 (broadcastInDim S16x128x128 ![] bcast_S_S16x128x128)
  :: StableHlo.TRef.binary main_call4.v4 main_call4.v2 main_call4.v5 minimumf
  :: StableHlo.unary main_v83 main_v84 (broadcastInDim S16x1x128x128 ![0, 2, 3] bcast_S16x128x128_S16x1x128x128_0_2_3 : (⟨S16x128x128, .f32⟩ : BufTy).Contents (Elt F) → (⟨S16x1x128x128, .f32⟩ : BufTy).Contents (Elt F))
  :: StableHlo.nullary main_cst_13 (constant S_ .f32 0x00000000#32)
  :: StableHlo.binary main_arg0 main_cst_13 main_v85 ((fun x v => Host.reduceAdd x v reducesTo_S16x256x128x128_S16x128x128_d1 h_S_) : (⟨S16x256x128x128, .f32⟩ : BufTy).Contents (Elt F) → (⟨S_, .f32⟩ : BufTy).Contents (Elt F) → (⟨S16x128x128, .f32⟩ : BufTy).Contents (Elt F))
  :: StableHlo.unary main_v85 main_v86 (broadcastInDim S16x1x128x128 ![0, 2, 3] bcast_S16x128x128_S16x1x128x128_0_2_3 : (⟨S16x128x128, .f32⟩ : BufTy).Contents (Elt F) → (⟨S16x1x128x128, .f32⟩ : BufTy).Contents (Elt F))
  :: StableHlo.nullary main_cst_14 (constant S_ .f32 0x43800000#32)
  :: StableHlo.unary main_cst_14 main_v87 (broadcastInDim S16x1x128x128 ![] bcast_S_S16x1x128x128 : (⟨S_, .f32⟩ : BufTy).Contents (Elt F) → (⟨S16x1x128x128, .f32⟩ : BufTy).Contents (Elt F))
  :: StableHlo.binary main_v86 main_v87 main_v88 (Host.divf : (⟨S16x1x128x128, .f32⟩ : BufTy).Contents (Elt F) → (⟨S16x1x128x128, .f32⟩ : BufTy).Contents (Elt F) → (⟨S16x1x128x128, .f32⟩ : BufTy).Contents (Elt F))
  :: StableHlo.nullary main_cst_15 (constant S_ .f32 0x3F800000#32)
  :: StableHlo.unary main_cst_15 main_v89 (broadcastInDim S16x1x128x128 ![] bcast_S_S16x1x128x128 : (⟨S_, .f32⟩ : BufTy).Contents (Elt F) → (⟨S16x1x128x128, .f32⟩ : BufTy).Contents (Elt F))
  :: StableHlo.binary main_v89 main_v84 main_v90 (mulf : (⟨S16x1x128x128, .f32⟩ : BufTy).Contents (Elt F) → (⟨S16x1x128x128, .f32⟩ : BufTy).Contents (Elt F) → (⟨S16x1x128x128, .f32⟩ : BufTy).Contents (Elt F))
  :: StableHlo.binary main_v90 main_v88 main_v91 (mulf : (⟨S16x1x128x128, .f32⟩ : BufTy).Contents (Elt F) → (⟨S16x1x128x128, .f32⟩ : BufTy).Contents (Elt F) → (⟨S16x1x128x128, .f32⟩ : BufTy).Contents (Elt F))
  :: StableHlo.unary main_v91 main_v92 (broadcastInDim S16x256x128x128 ![0, 1, 2, 3] bcast_S16x1x128x128_S16x256x128x128_0_1_2_3 : (⟨S16x1x128x128, .f32⟩ : BufTy).Contents (Elt F) → (⟨S16x256x128x128, .f32⟩ : BufTy).Contents (Elt F))
  :: StableHlo.binary main_arg0 main_v92 main_v93 (addf : (⟨S16x256x128x128, .f32⟩ : BufTy).Contents (Elt F) → (⟨S16x256x128x128, .f32⟩ : BufTy).Contents (Elt F) → (⟨S16x256x128x128, .f32⟩ : BufTy).Contents (Elt F))
  :: [] )

/-- Every operation touches TensorCore references only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub ..⟩

end Cert.ReferenceIdeal.HostRun

end
-- ==== Proof.RefRun.lean ====
/-
  The reference's run: @main is the straight line of its host operations (the outlined functions unfolded at their
  calls, the sequencing re-associated), so every weakly fair execution of it terminates with each buffer at the fold
  of those operations over the launch contents. The line splits into the mask's operations followed by the
  excitation's, and running one line after another folds the second over the first's result.
-/
import proofs.«134350_j70420283785392_1_alg».proof.Proof.RefOps
import Idealize.ShloMosaic.Lib.StableHlo.Run
import Idealize.ShloMosaic.Lib.Pipeline.Regions

set_option maxRecDepth 16384

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- The whole line is the mask's operations followed by the excitation's. -/
theorem ops_eq : (ops : List (HloOp τ sig (Elt F))) = maskOps ++ exciteOps := rfl

/-- @main is that straight line: the outlined functions unfolded at their calls, the sequencing re-associated. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation determines its results. -/
theorem ops_fresh : (ops : List (HloOp τ sig (Elt F))).Forall fun op => op.fresh = ∅ := by
  simp only [List.Forall]; repeat' constructor

/-- Running one line after another folds the second over the first's result. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ
    (fun _ op h => (List.forall_iff_forall_mem.mp ops_fresh) op h)

end Cert.ReferenceIdeal.HostRun

end
-- ==== Proof.RefValue.lean ====
/-
  The reference's value: its result is the specification's function of the input and of the mask the reference
  itself builds.

  After the mask's operations (none of which writes the input), the remaining twelve compute, in whole-array
  operations, x + bcast((bcast 1 · M) · (bcast (0 + Σ_channels x) / bcast 256)): the channel sum as a host reduce
  from the initial value 0, laid out with a unit channel axis, divided by 256 entry by entry, multiplied by the mask,
  broadcast over the 256 channels and added to the input. Read at (b, c, h, w) this is the specification: the splats
  read their constants, the layout operations read (b, 0, h, w) and (b, h, w), the reduce is the plain sum over the
  channel coordinate, and dividing by 256 is multiplying by 2⁻⁸ on every extended real.
-/
import proofs.«134350_j70420283785392_1_alg».proof.Proof.RefRun
import proofs.«134350_j70420283785392_1_alg».proof.Proof.Spec
import proofs.«134350_j70420283785392_1_alg».proof.Proof.LibAxis1
import Idealize.ShloMosaic.Lib.Pipeline.Value
import Idealize.ShloMosaic.PureOps.Ideal.Laws
import Idealize.ShloMosaic.Lib.ValueIdx

set_option maxRecDepth 16384

noncomputable section

open scoped BigOperators

namespace Cert.ReferenceIdeal.ExciteValue

open Cert.ReferenceIdeal Cert.ReferenceIdeal.Gen Cert.ReferenceIdeal.HostRun Cert.Excite
open Idealize.ShloMosaic Idealize.ShloMosaic.TcCoe Idealize.SL.Sem Idealize.ShloMosaic.StableHlo Idealize.ShloMosaic.ValueIdx

/-! ## The layout operations and the reduce, read at an index -/

/-- A constant splat to any shape reads the constant's value everywhere. -/
theorem splat_apply {t : Shape} (h : S_.BroadcastsInDim t (![] : Fin 0 → Fin t.rank)) (v : BitVec 32) (j : t.Idx) :
    broadcastInDim t ![] h (constant (F := Ideal) S_ .f32 v) j = Ideal.ofBits .f32 v :=
  broadcastInDim_apply _ h _ j ix0 (fun a => a.elim0)

/-- [16, 128, 128] laid out as [16, 1, 128, 128] reads, at (b, 0, h, w), the operand at (b, h, w). -/
theorem keep_apply (S : S16x128x128.Idx → EReal) (b : Fin 16) (h w : Fin 128) :
    broadcastInDim S16x1x128x128 ![0, 2, 3] bcast_S16x128x128_S16x1x128x128_0_2_3 S (ix4 b (0 : Fin 1) h w)
      = S (ix3 b h w) :=
  broadcastInDim_apply _ _ _ _ _ (fun a => by
    match a with
    | ⟨0, _⟩ => show b.val = (if (16 : Nat) = 1 then 0 else b.val); rw [if_neg (by decide)]
    | ⟨1, _⟩ => show h.val = (if (128 : Nat) = 1 then 0 else h.val); rw [if_neg (by decide)]
    | ⟨2, _⟩ => show w.val = (if (128 : Nat) = 1 then 0 else w.val); rw [if_neg (by decide)])

/-- [16, 1, 128, 128] broadcast over the 256 channels reads, at (b, c, h, w), the operand at (b, 0, h, w). -/
theorem chan_apply (T : S16x1x128x128.Idx → EReal) (b : Fin 16) (c : Fin 256) (h w : Fin 128) :
    broadcastInDim S16x256x128x128 ![0, 1, 2, 3] bcast_S16x1x128x128_S16x256x128x128_0_1_2_3 T (ix4 b c h w)
      = T (ix4 b (0 : Fin 1) h w) :=
  broadcastInDim_apply _ _ _ _ _ (fun a => by
    match a with
    | ⟨0, _⟩ => show b.val = (if (16 : Nat) = 1 then 0 else b.val); rw [if_neg (by decide)]
    | ⟨1, _⟩ => show (0 : Nat) = (if (1 : Nat) = 1 then 0 else c.val); rw [if_pos rfl]
    | ⟨2, _⟩ => show h.val = (if (128 : Nat) = 1 then 0 else h.val); rw [if_neg (by decide)]
    | ⟨3, _⟩ => show w.val = (if (128 : Nat) = 1 then 0 else w.val); rw [if_neg (by decide)])

/-- The host's sum over the channel axis from the initial value 0, read at (b, h, w): the sum over the channel
    coordinate of the operand at (b, ·, h, w). -/
theorem chanSum_apply (X : S16x256x128x128.Idx → EReal) (b : Fin 16) (h w : Fin 128) :
    Host.reduceAdd (F := Ideal) X (constant (F := Ideal) S_ .f32 0x00000000#32)
        reducesTo_S16x256x128x128_S16x128x128_d1 h_S_ (ix3 b h w)
      = ∑ k : Fin 256, X (ix4 b k h w) := by
  have hr : S16x256x128x128.Reduces [(1 : Fin 4)] S16x128x128 := by decide
  refine (Cert.LibAxis1.hostReduceAdd_axis1 reducesTo_S16x256x128x128_S16x128x128_d1 hr X _ b h w).trans ?_
  rw [show (constant (F := Ideal) S_ .f32 0x00000000#32) (Shape.Idx.first h_S_) = Ideal.ofBits .f32 0x00000000#32 from rfl,
    ofBits_zero, zero_add]

/-! ## The excitation's operations are the specification -/

/-- The whole-array term the last twelve operations compute is the specification. -/
theorem host_excite (X : S16x256x128x128.Idx → EReal) (Mk : S16x1x128x128.Idx → EReal) :
    addf (F := Ideal) X
      (broadcastInDim S16x256x128x128 ![0, 1, 2, 3] bcast_S16x1x128x128_S16x256x128x128_0_1_2_3
        (mulf
          (mulf (broadcastInDim S16x1x128x128 ![] bcast_S_S16x1x128x128 (constant (F := Ideal) S_ .f32 0x3F800000#32)) Mk)
          (Host.divf
            (broadcastInDim S16x1x128x128 ![0, 2, 3] bcast_S16x128x128_S16x1x128x128_0_2_3
              (Host.reduceAdd (F := Ideal) X (constant (F := Ideal) S_ .f32 0x00000000#32)
                reducesTo_S16x256x128x128_S16x128x128_d1 h_S_))
            (broadcastInDim S16x1x128x128 ![] bcast_S_S16x1x128x128 (constant (F := Ideal) S_ .f32 0x43800000#32)))))
      = excite X Mk := by
  funext i
  obtain ⟨b, c, h, w, rfl⟩ : ∃ (b : Fin 16) (c : Fin 256) (h : Fin 128) (w : Fin 128), i = ix4 b c h w :=
    ⟨i 0, i 1, i 2, i 3, eq_ix4 i⟩
  show X (ix4 b c h w)
      + broadcastInDim S16x256x128x128 ![0, 1, 2, 3] bcast_S16x1x128x128_S16x256x128x128_0_1_2_3
        (mulf
          (mulf (broadcastInDim S16x1x128x128 ![] bcast_S_S16x1x128x128 (constant (F := Ideal) S_ .f32 0x3F800000#32)) Mk)
          (Host.divf
            (broadcastInDim S16x1x128x128 ![0, 2, 3] bcast_S16x128x128_S16x1x128x128_0_2_3
              (Host.reduceAdd (F := Ideal) X (constant (F := Ideal) S_ .f32 0x00000000#32)
                reducesTo_S16x256x128x128_S16x128x128_d1 h_S_))
            (broadcastInDim S16x1x128x128 ![] bcast_S_S16x1x128x128 (constant (F := Ideal) S_ .f32 0x43800000#32)))) (ix4 b c h w)
      = exciteAt X Mk b c h w
  rw [chan_apply]
  show X (ix4 b c h w)
      + ((broadcastInDim S16x1x128x128 ![] bcast_S_S16x1x128x128 (constant (F := Ideal) S_ .f32 0x3F800000#32)) (ix4 b (0 : Fin 1) h w) * Mk (ix4 b (0 : Fin 1) h w))
        * Ideal.div
            ((broadcastInDim S16x1x128x128 ![0, 2, 3] bcast_S16x128x128_S16x1x128x128_0_2_3
              (Host.reduceAdd (F := Ideal) X (constant (F := Ideal) S_ .f32 0x00000000#32)
                reducesTo_S16x256x128x128_S16x128x128_d1 h_S_)) (ix4 b (0 : Fin 1) h w))
            ((broadcastInDim S16x1x128x128 ![] bcast_S_S16x1x128x128 (constant (F := Ideal) S_ .f32 0x43800000#32)) (ix4 b (0 : Fin 1) h w))
      = exciteAt X Mk b c h w
  rw [splat_apply, splat_apply, keep_apply, chanSum_apply, div_256]
  rfl

/-! ## The fold of the reference's operations -/

/-- No operation of the mask writes the input. -/
theorem mask_keeps_arg0 (V : Valuation τ sig (Elt Ideal)) :
    StableHlo.after maskOps V (Proc.devRef .tc main_arg0) = V (Proc.devRef .tc main_arg0) :=
  StableHlo.after_of_forall_not_mem (b := Proc.devRef .tc main_arg0) _ _ (List.forall_iff_forall_mem.mp (by
    simp only [maskOps, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last twelve operations, from any contents `W`, leave the specification of `W`'s input and mask in the result. -/
theorem excite_ops (W : Valuation τ sig (Elt Ideal)) :
    StableHlo.after exciteOps W (Proc.devRef .tc main_v93)
      = excite (W (Proc.devRef .tc main_arg0)) (W (Proc.devRef .tc main_v84)) := by
  after_results
  exact host_excite _ _

/-- The reference's result: the specification of the launched input and of the mask its own operations build. -/
theorem result_eq (V : Valuation τ sig (Elt Ideal)) :
    StableHlo.after ops V (Proc.devRef .tc main_v93)
      = excite (V (Proc.devRef .tc main_arg0)) (StableHlo.after maskOps V (Proc.devRef .tc main_v84)) := by
  rw [ops_eq, after_append, excite_ops, mask_keeps_arg0]

/-! ## The arguments are never written -/

/-- No operation of the reference writes argument 0. -/
theorem ops_keeps_arg0 (V : Valuation τ sig (Elt Ideal)) :
    StableHlo.after ops V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- No operation of the reference writes argument 1. -/
theorem ops_keeps_arg1 (V : Valuation τ sig (Elt Ideal)) :
    StableHlo.after ops V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- No operation of the reference writes argument 2. -/
theorem ops_keeps_arg2 (V : Valuation τ sig (Elt Ideal)) :
    StableHlo.after ops V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.ReferenceIdeal.ExciteValue

end
-- ==== Proof.Mask.lean ====
/-
  The two programs build the SAME mask.

  Both programs start with the same host operations on the boxes and the index vector — the box corners scaled to
  the 128 × 128 grid, truncated toward zero and clamped, the rows and columns each box covers, the per-image sum of
  the covered cells, the clip into [0, 1], the layout with a unit channel axis — and neither ever opens them: once
  every operation's result is read back at its own buffer, the mask on each side is one and the same composition of
  those operations applied to the boxes and the index vector. So from memories that agree on these two arguments the
  kernel's mask, as its region finds it, is the reference's mask.
-/
import proofs.«134350_j70420283785392_1_alg».proof.Proof.RefRun
import proofs.«134350_j70420283785392_1_alg».proof.Proof.Gen.KernelIdeal.Frame
import Idealize.ShloMosaic.PureOps.Ideal

set_option maxRecDepth 16384
set_option maxHeartbeats 4000000

noncomputable section

namespace Cert.Mask

open Idealize.ShloMosaic Idealize.ShloMosaic.TcCoe Idealize.SL.Sem Idealize.ShloMosaic.StableHlo

/-- From contents that agree on the boxes and on the index vector, the kernel program's host operations before its
    region and the reference's mask operations leave the same mask. -/
theorem fold_eq (VK : Valuation Cert.KernelIdeal.τ Cert.KernelIdeal.sig (Elt Ideal)) (VR : Valuation Cert.ReferenceIdeal.τ Cert.ReferenceIdeal.sig (Elt Ideal))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10]) VK (Proc.devRef .tc Cert.KernelIdeal.main_v84)
      = StableHlo.after Cert.ReferenceIdeal.HostRun.maskOps VR (Proc.devRef .tc Cert.ReferenceIdeal.main_v84) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h1, h2]
  rfl

/-- The kernel's mask, as its region finds it, is the reference's, from memories agreeing on the boxes and the index
    vector. -/
theorem mask_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Gen.V m c Cert.KernelIdeal.main_v84
      = StableHlo.after Cert.ReferenceIdeal.HostRun.maskOps (StableHlo.launchContents m' c) (Proc.devRef .tc Cert.ReferenceIdeal.main_v84) :=
  fold_eq (fun b => m (c, b)) (StableHlo.launchContents m' c) h1.symm h2.symm

end Cert.Mask

end
-- ==== Proof.lean ====
/-
  The certificate of the channel-mean excitation kernel against its jnp reference.

  Both programs take an input x : [16, 256, 128, 128], boxes : [320, 4] and an index vector : [320]. Both first build,
  with the same host operations, a mask M : [16, 1, 128, 128] from the boxes and the index vector; then the kernel
  computes, block by block on a 16 × 4 grid (one image, all 256 channels, a band of 32 rows, all columns per point),

      x + (1 · M) · ((Σ_channels x) · 2⁻⁸),

  while the reference computes on whole arrays x + (1 · M) · ((0 + Σ_channels x) / 256). On the extended reals these
  are one function (Proof/Spec.lean): dividing by 256 is multiplying by 2⁻⁸ for every extended real, so the
  precondition (finite inputs) is never opened. The pieces:
    · Proof/KernelValue.lean — the kernel's output array after the run is the specification of the launched input
      and of the mask as the kernel's region finds it (each grid point writes the specification's block; the 64
      blocks tile the array);
    · Proof/RefOps.lean, Proof/RefRun.lean — the reference's @main is a straight line of host operations, and its run;
    · Proof/RefValue.lean — the reference's result is the specification of the launched input and of the mask its own
      operations build;
    · Proof/Mask.lean — the two masks are the same composition of operations of the boxes and the index vector.
  The frames of the two kernel programs are the generated ones; the reference's frame is its run with the result
  dropped; the idealization rewrote nothing, so `preserves` is trivial.
-/
import proofs.«134350_j70420283785392_1_alg».proof.Defs
import proofs.«134350_j70420283785392_1_alg».proof.Proof.Gen.Kernel
import proofs.«134350_j70420283785392_1_alg».proof.Proof.Gen.Kernel.Skeleton
import proofs.«134350_j70420283785392_1_alg».proof.Proof.Gen.Kernel.Launch
import proofs.«134350_j70420283785392_1_alg».proof.Proof.Gen.Kernel.Points
import proofs.«134350_j70420283785392_1_alg».proof.Proof.Gen.Kernel.Frame
import proofs.«134350_j70420283785392_1_alg».proof.Proof.Gen.KernelIdeal
import proofs.«134350_j70420283785392_1_alg».proof.Proof.Gen.KernelIdeal.Skeleton
import proofs.«134350_j70420283785392_1_alg».proof.Proof.Gen.KernelIdeal.Launch
import proofs.«134350_j70420283785392_1_alg».proof.Proof.Gen.KernelIdeal.Points
import proofs.«134350_j70420283785392_1_alg».proof.Proof.Gen.KernelIdeal.Frame
import proofs.«134350_j70420283785392_1_alg».proof.Proof.Gen.KernelIdeal.Value
import proofs.«134350_j70420283785392_1_alg».proof.Proof.Gen.ReferenceIdeal
import proofs.«134350_j70420283785392_1_alg».proof.Proof.Gen.Pre_finite_inputs
import proofs.«134350_j70420283785392_1_alg».proof.Proof.KernelValue
import proofs.«134350_j70420283785392_1_alg».proof.Proof.RefValue
import proofs.«134350_j70420283785392_1_alg».proof.Proof.Mask
import Idealize.ShloMosaic.Adequacy
import Idealize.ShloMosaic.Init

noncomputable section

namespace Cert.Proof

open Idealize.ShloMosaic Idealize.SL.Sem Cert.Excite

/-- The word-level kernel program's frame: the generated one. -/
theorem frame_k : Cert.frame_Kernel := fun m ρ _ => Cert.Kernel.Gen.frame m ρ

/-- The idealized kernel program's frame: the generated one. -/
theorem frame_ki : Cert.frame_KernelIdeal := fun m ρ _ => Cert.KernelIdeal.Gen.frame m ρ

/-- The reference's frame: its run, with the result dropped; no operation writes an argument. -/
theorem frame_ri : Cert.frame_ReferenceIdeal := fun m ρ _ =>
  (θ_run Cert.ReferenceIdeal.defs _ _).mono
    (fun _ h c =>
      ⟨(h c Cert.ReferenceIdeal.main_arg0).trans (Cert.ReferenceIdeal.ExciteValue.ops_keeps_arg0 _),
       (h c Cert.ReferenceIdeal.main_arg1).trans (Cert.ReferenceIdeal.ExciteValue.ops_keeps_arg1 _),
       (h c Cert.ReferenceIdeal.main_arg2).trans (Cert.ReferenceIdeal.ExciteValue.ops_keeps_arg2 _)⟩)
    (Cert.ReferenceIdeal.HostRun.run_main (F := Ideal) m ρ)

/-- The idealization rewrote no operation. -/
theorem preserves : Cert.preserves_Kernel_KernelIdeal := trivial

/-- From memories agreeing on the arguments both programs end with the specification of the input and of the (one)
    mask: the kernel's output array by its value leg, the reference's result by its run, and the two masks are equal. -/
theorem algebraic : Cert.algebraic_KernelIdeal_ReferenceIdeal := by
  intro m ρ m' ρ' _ hagree
  refine ⟨fun c => excite (m ((c.tc : Thread Cert.KernelIdeal.nD Cert.KernelIdeal.τ).loc Cert.KernelIdeal.main_arg0))
      (Cert.KernelIdeal.Gen.V m c Cert.KernelIdeal.main_v84),
    Cert.KernelIdeal.ExciteValue.run m ρ, ?_⟩
  refine (θ_run Cert.ReferenceIdeal.defs _ _).mono (fun r h c => ⟨?_, ?_, ?_, ?_⟩)
    (Cert.ReferenceIdeal.HostRun.run_main (F := Ideal) m' ρ')
  · refine (h c Cert.ReferenceIdeal.main_v93).trans ?_
    rw [Cert.ReferenceIdeal.ExciteValue.result_eq,
      ← Cert.Mask.mask_eq m m' c (hagree c).2.1 (hagree c).2.2]
    exact congrArg (fun x => excite x (Cert.KernelIdeal.Gen.V m c Cert.KernelIdeal.main_v84)) (hagree c).1
  · exact (h c Cert.ReferenceIdeal.main_arg0).trans (Cert.ReferenceIdeal.ExciteValue.ops_keeps_arg0 _)
  · exact (h c Cert.ReferenceIdeal.main_arg1).trans (Cert.ReferenceIdeal.ExciteValue.ops_keeps_arg1 _)
  · exact (h c Cert.ReferenceIdeal.main_arg2).trans (Cert.ReferenceIdeal.ExciteValue.ops_keeps_arg2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
